-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 100
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x1, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x32, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x32, .f32⟩
  | .hbm, ⟨91, _⟩ => ⟨S1600000x1, .f32⟩
  | .hbm, ⟨92, _⟩ => ⟨S1600000x32, .f32⟩
  | .hbm, ⟨93, _⟩ => ⟨S1600000x32, .f32⟩
  | .hbm, ⟨94, _⟩ => ⟨S_, .f32⟩
  | .hbm, ⟨95, _⟩ => ⟨S100000x32, .f32⟩
  | .hbm, ⟨96, _⟩ => ⟨S1600000x1, .i32⟩
  | .hbm, ⟨97, _⟩ => ⟨S100000x32, .f32⟩
  | .hbm, ⟨98, _⟩ => ⟨S1x32, .f32⟩
  | .hbm, ⟨99, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x1, .f32⟩
  | .local _ .vmem, ⟨38, _⟩ => ⟨S10000x1, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S100000x32.size a
  hwx5_1 : ∀ i : grid5.Coords, EltTy.bits .f32 = 32 ∨ (Rect.block (s := S100000x32) S10000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x32.size a ≤ S100000x32.size a
  hwx5_4 : ∀ i : grid5.Coords, EltTy.bits .f32 = 32 ∨ (Rect.block (s := S100000x32) S10000x32.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S10000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 160
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x1, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x32, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x64, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x32, .f32⟩
  | 17 => ⟨S1600000x1, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S100000, .f32⟩
  | 25 => ⟨S100000x1, .f32⟩
  | 26 => ⟨S100000x32, .f32⟩
  | 27 => ⟨S100000x32, .f32⟩
  | 28 => ⟨S100000x32, .f32⟩
  | 29 => ⟨S1x32, .f32⟩
  | 30 => ⟨S100000x32, .f32⟩
  | 31 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run, with its result kept.

  The program is six launches among stretches of host operations. Its buffers after each stretch and each launch are a
  fold from the launch memory: a host stretch applies its operations, a launch replaces its arrays by what its grid
  points wrote back and leaves every other buffer alone. Every weakly fair execution terminates in a state whose
  buffers are the end of that fold; so the result array is the fold's value at the result buffer, and the arguments are
  as launched.
-/
import proofs.«113482_j9122510536959_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the end of the fold and the
    argument arrays as launched. -/
theorem run_result : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Fold

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«113482_j9122510536959_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«113482_j9122510536959_1_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.LibGcnDense.lean ====
/-
  The dense steps of one graph-convolution layer, entry by entry, on the extended reals.

  A layer takes the node features `x`, projects them with a weight matrix, `h = x · w`, gathers and sums the projected
  rows along the edges into `agg`, and then combines, at node `r` and feature `j`,

      out (r, j) = (agg (r, j) + d (r) · h (r, j)) + b (j),

  where `d (r)` is the self-loop weight of node `r` (held as a column `[R, 1]`) and `b` the bias (held as a row
  `[1, N]`); the first two layers then take the maximum with zero. Both dense steps act on every row by itself:
  row `r` of the projection reads row `r` of `x` only, and entry `(r, j)` of the combination reads row `r` of `agg`,
  `h` and `d`. So a block of consecutive rows of the inputs gives the same block of rows of the result, which is what
  lets a computation done ten thousand rows at a time be compared with one done on the whole array.

  This file states the combination as one function (`combine`, `rectify`), shows that blocks of rows are kept by it,
  and reads the vector operations that compute it on a block — a column spread along the features, a row spread down
  the nodes, sums, a product, a maximum against the zero splat — at an entry.
-/
import Idealize.ShloMosaic.Lib.ValueIdx
import Idealize.ShloMosaic.Lib.ValueLayout
import Idealize.ShloMosaic.Lib.Pipeline.Value
import Idealize.ShloMosaic.PureOps.Ideal.Laws
import proofs.«113482_j9122510536959_1_alg».proof.Proof.LibRowBlocks

noncomputable section

namespace Cert.Gcn

open Idealize.ShloMosaic Idealize.ShloMosaic.ValueIdx Cert.MatProduct Cert.Bridge

/-! ## The combination of a layer, as one function of whole arrays -/

/-- Entry `(r, j)` of a layer before the maximum with zero: the gathered sum, plus the node's own projected row scaled
    by its self-loop weight, plus the bias of the feature. -/
def combine {R N : ℕ} (agg h : (⟨2, ![R, N]⟩ : Shape).Idx → EReal) (d : (⟨2, ![R, 1]⟩ : Shape).Idx → EReal)
    (b : (⟨2, ![1, N]⟩ : Shape).Idx → EReal) : (⟨2, ![R, N]⟩ : Shape).Idx → EReal :=
  fun i => (agg i + d (ix2 (rowOf i) (0 : Fin 1)) * h i) + b (ix2 (0 : Fin 1) (colOf i))

/-- The maximum with the zero of the 32-bit format, entry by entry. -/
def rectify {R N : ℕ} (a : (⟨2, ![R, N]⟩ : Shape).Idx → EReal) : (⟨2, ![R, N]⟩ : Shape).Idx → EReal :=
  fun i => max (a i) (Ideal.ofBits .f32 0x00000000#32)

theorem combine_apply {R N : ℕ} (agg h : (⟨2, ![R, N]⟩ : Shape).Idx → EReal) (d : (⟨2, ![R, 1]⟩ : Shape).Idx → EReal)
    (b : (⟨2, ![1, N]⟩ : Shape).Idx → EReal) (r : Fin R) (j : Fin N) :
    combine agg h d b (ix2 r j) = (agg (ix2 r j) + d (ix2 r (0 : Fin 1)) * h (ix2 r j)) + b (ix2 (0 : Fin 1) j) := rfl

/-! ## Blocks of rows are kept -/

/-- The combination keeps blocks of rows: entry `(p, j)` of the block reads row `p` of the block's `agg`, `h` and
    `d`, which are row `o + p` of the whole arrays, and the bias row, which is the same for every block. -/
theorem rowsAt_combine {M R N : ℕ} {o : ℕ}
    {a : (⟨2, ![M, N]⟩ : Shape).Idx → EReal} {a' : (⟨2, ![R, N]⟩ : Shape).Idx → EReal}
    {h : (⟨2, ![M, N]⟩ : Shape).Idx → EReal} {h' : (⟨2, ![R, N]⟩ : Shape).Idx → EReal}
    {d : (⟨2, ![M, 1]⟩ : Shape).Idx → EReal} {d' : (⟨2, ![R, 1]⟩ : Shape).Idx → EReal}
    (b : (⟨2, ![1, N]⟩ : Shape).Idx → EReal)
    (ha : RowsAt o a a') (hh : RowsAt o h h') (hd : RowsAt o d d') :
    RowsAt o (combine a h d b) (combine a' h' d' b) :=
  fun p r j e => by
    rw [combine_apply, combine_apply, ha p r j e, hh p r j e, hd p r (0 : Fin 1) e]

/-- So does the maximum with zero. -/
theorem rowsAt_rectify {M R N : ℕ} {o : ℕ}
    {a : (⟨2, ![M, N]⟩ : Shape).Idx → EReal} {a' : (⟨2, ![R, N]⟩ : Shape).Idx → EReal}
    (ha : RowsAt o a a') : RowsAt o (rectify a) (rectify a') :=
  ha.map (fun z => max z (Ideal.ofBits .f32 0x00000000#32))

/-! ## The vector operations of a block, read at an entry -/

/-- A column `[a, 1]` spread along a new extent `b` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's arithmetic before the maximum, at entry `(p, j)`: identity casts, the self-loop column spread along
    the features, the bias row spread down the rows, one product and two sums. -/
theorem combineBody_apply {M N : ℕ} (A H : FVec Ideal ⟨2, ![M, N]⟩ .f32) (D : FVec Ideal ⟨2, ![M, 1]⟩ .f32)
    (B : FVec Ideal ⟨2, ![1, N]⟩ .f32)
    (hS : (⟨2, ![M, N]⟩ : Shape).ShapeCasts ⟨2, ![M, N]⟩) (hD : (⟨2, ![M, 1]⟩ : Shape).ShapeCasts ⟨2, ![M, 1]⟩)
    (hB : (⟨2, ![1, N]⟩ : Shape).ShapeCasts ⟨2, ![1, N]⟩)
    (hc : (⟨2, ![M, 1]⟩ : Shape).Broadcasts ⟨2, ![M, N]⟩) (hr : (⟨2, ![1, N]⟩ : Shape).Broadcasts ⟨2, ![M, N]⟩)
    (p : Fin M) (j : Fin N) :
    addf (addf (shapeCast ⟨2, ![M, N]⟩ A hS)
        (mulf (broadcastTo ⟨2, ![M, N]⟩ (shapeCast ⟨2, ![M, 1]⟩ D hD) hc) (shapeCast ⟨2, ![M, N]⟩ H hS)))
      (broadcastTo ⟨2, ![M, N]⟩ (shapeCast ⟨2, ![1, N]⟩ B hB) hr) (ix2 p j)
    = combine A H D B (ix2 p j) := by
  rw [shapeCast_self, shapeCast_self, shapeCast_self, shapeCast_self, combine_apply]
  show (A (ix2 p j) + broadcastTo ⟨2, ![M, N]⟩ D hc (ix2 p j) * H (ix2 p j)) + broadcastTo ⟨2, ![M, N]⟩ B hr (ix2 p j) = _
  rw [broadcastTo_a1_ab_apply, broadcastTo_1b_ab_apply]

/-- A whole-array statement of the same: the block's arithmetic is `combine` of its operands. -/
theorem combineBody_eq {M N : ℕ} (A H : FVec Ideal ⟨2, ![M, N]⟩ .f32) (D : FVec Ideal ⟨2, ![M, 1]⟩ .f32)
    (B : FVec Ideal ⟨2, ![1, N]⟩ .f32)
    (hS : (⟨2, ![M, N]⟩ : Shape).ShapeCasts ⟨2, ![M, N]⟩) (hD : (⟨2, ![M, 1]⟩ : Shape).ShapeCasts ⟨2, ![M, 1]⟩)
    (hB : (⟨2, ![1, N]⟩ : Shape).ShapeCasts ⟨2, ![1, N]⟩)
    (hc : (⟨2, ![M, 1]⟩ : Shape).Broadcasts ⟨2, ![M, N]⟩) (hr : (⟨2, ![1, N]⟩ : Shape).Broadcasts ⟨2, ![M, N]⟩) :
    addf (addf (shapeCast ⟨2, ![M, N]⟩ A hS)
        (mulf (broadcastTo ⟨2, ![M, N]⟩ (shapeCast ⟨2, ![M, 1]⟩ D hD) hc) (shapeCast ⟨2, ![M, N]⟩ H hS)))
      (broadcastTo ⟨2, ![M, N]⟩ (shapeCast ⟨2, ![1, N]⟩ B hB) hr)
    = combine A H D B := by
  funext y
  rw [eq_row_col y]
  exact combineBody_apply A H D B hS hD hB hc hr (rowOf y) (colOf y)

/-- The maximum against the zero splat is `rectify`. -/
theorem maximumf_zero_eq {M N : ℕ} (a : FVec Ideal ⟨2, ![M, N]⟩ .f32) :
    maximumf a (broadcast ⟨2, ![M, N]⟩ (Scalar.ofBits (F := Ideal) .f32 0x00000000#32)) = rectify a := rfl

/-- The matrix unit on operands narrowed to the 16-bit format, accumulating into the zero splat, is the product:
    on the extended reals a change of format is the identity. -/
theorem narrowed_matmul_eq_prod {M K N : ℕ} (x : FVec Ideal ⟨2, ![M, K]⟩ .f32) (w : FVec Ideal ⟨2, ![K, N]⟩ .f32)
    (h1 : FTy.bf16.bits < FTy.f32.bits) :
    matmul (DotDims.plain M K N) none (truncf .bf16 x h1) (truncf .bf16 w h1)
      (constant (F := Ideal) ⟨2, ![M, N]⟩ .f32 0x00000000#32) = prod x w :=
  matmul_zero_eq_prod none (truncf .bf16 x h1) (truncf .bf16 w h1)

/-- The same with the left operand first passed through a cast to its own shape, which changes nothing. -/
theorem cast_narrowed_matmul_eq_prod {M K N : ℕ} (x : FVec Ideal ⟨2, ![M, K]⟩ .f32) (w : FVec Ideal ⟨2, ![K, N]⟩ .f32)
    (hS : (⟨2, ![M, K]⟩ : Shape).ShapeCasts ⟨2, ![M, K]⟩) (h1 : FTy.bf16.bits < FTy.f32.bits) :
    matmul (DotDims.plain M K N) none (truncf .bf16 (shapeCast ⟨2, ![M, K]⟩ x hS) h1) (truncf .bf16 w h1)
      (constant (F := Ideal) ⟨2, ![M, N]⟩ .f32 0x00000000#32) = prod x w := by
  rw [shapeCast_self]
  exact narrowed_matmul_eq_prod x w h1

end Cert.Gcn

end
-- ==== Proof.Region0.lean ====
/-
  The first projection, block of rows by block of rows.

  Launch 0 computes `h = x · w` ten thousand rows at a time: grid point `t` reads rows 10000·t … 10000·t + 9999 of
  `x` and the whole of `w`, multiplies them on the matrix unit (its operands narrowed to the 16-bit format, which on
  the extended reals changes nothing, accumulating into zero) and writes the rows of the same numbers of the result.
  Row `r` of a product reads row `r` of the left factor only, so what point `t` writes is the block of rows of the
  whole product `x · w`; the ten blocks tile the result, so after the launch the result array is `x · w`.
-/
import proofs.«113482_j9122510536959_1_alg».proof.Proof.Gen.KernelIdeal.Frame
import proofs.«113482_j9122510536959_1_alg».proof.Proof.LibGcnDense

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProduct Cert.Bridge Cert.Gcn

-- the buffers as the launch finds them
variable (V : (c : Dev nD) → (b : Ref sig .tc) → Buf (Elt Ideal) ((c : Thread nD τ).loc b))

/-- The left factor, the right factor: the arrays of the launch's two input windows. -/
abbrev X (c : Dev nD) : (⟨2, ![100000, 64]⟩ : Shape).Idx → EReal := V c main_arg0
abbrev Wt (c : Dev nD) : (⟨2, ![64, 64]⟩ : Shape).Idx → EReal := V c main_arg2

theorem hz : (![0, 0] : Fin 2 → Nat) = fun _ => 0 := funext fun a => by fin_cases a <;> rfl

/-- The printed index maps over the ten grid points: the row-blocked windows move with the point, the weight window
    stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body leaves in the output block: the product of its two input blocks. -/
theorem out_eq (x0 : Vec Ideal S10000x64 .f32) (x1 : Vec Ideal S64x64 .f32) :
    out0_2 x0 x1 = prod (M := 10000) (K := 64) (N := 64) x0 x1 := by
  unfold out0_2
  rw [View.canon_unit_zero hz]
  simp only [View.ld_unit_zero (S := S10000x64) hz, View.ld_unit_zero (S := S64x64) hz]
  exact narrowed_matmul_eq_prod (M := 10000) (K := 64) (N := 64) x0 x1 _

/-- The left window's block at point `t` holds rows 10000·t … of the left factor. -/
theorem rows_x (c : Dev nD) (t : Fin cfg0.N) :
    RowsAt (M := 10000) (R := 100000) (N := 64) (10000 * t.val) (iblk0 V c 0 t) (X V c) := by
  intro p r j e
  obtain ⟨e0, e1, -⟩ := idx_facts t
  show V c main_arg0 (((cfg0.win 0).blk t).view.emb (ix2 p j)) = V c main_arg0 (ix2 r j)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 64 + 1 * j.val = j.val; omega

/-- The weight window's block is the whole weight matrix, at every point. -/
theorem whole_w (c : Dev nD) (t : Fin cfg0.N) : (iblk0 V c 1 t : (⟨2, ![64, 64]⟩ : Shape).Idx → EReal) = Wt V c := by
  funext y
  obtain ⟨-, -, e2, e3, -⟩ := idx_facts t
  show V c main_arg2 (((cfg0.win 1).blk t).view.emb y) = V c main_arg2 y
  refine congrArg (V c main_arg2) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- What point `t` writes back is the block of rows 10000·t … of the whole product. -/
theorem flushed_eq (c : Dev nD) (t : Fin cfg0.N) :
    (dat0 V c).flushed 2 t = ((cfg0.win 2).blk t).view.read (Elt Ideal) (prod (X V c) (Wt V c)) := by
  show (cfg0.win 2).cut (grid0.coords t) ((dat0 V c).after 2 t) = _
  rw [after0_2, out_eq, whole_w]
  funext y
  obtain ⟨p, j, rfl⟩ : ∃ (p : Fin 10000) (j : Fin 64), y = ix2 p j := ⟨rowOf y, colOf y, eq_row_col y⟩
  obtain ⟨-, -, -, -, e4, e5⟩ := idx_facts t
  have ht : t.val < 10 := lt_of_lt_of_eq t.isLt (N_0 : cfg0.N = 10)
  have hr : 10000 * t.val + p.val < 100000 := by have := p.isLt; omega
  have hemb : ((cfg0.win 2).blk t).view.emb (ix2 p j) = ix2 (⟨10000 * t.val + p.val, hr⟩ : Fin 100000) j := by
    funext a
    refine Fin.ext ?_
    match a with
    | ⟨0, _⟩ => show win0_2.index t (0 : Fin 2) * 10000 + 1 * p.val = 10000 * t.val + p.val; omega
    | ⟨1, _⟩ => show win0_2.index t (1 : Fin 2) * 64 + 1 * j.val = j.val; omega
  show prod (iblk0 V c 0 t) (Wt V c) (ix2 p j) = prod (X V c) (Wt V c) (((cfg0.win 2).blk t).view.emb (ix2 p j))
  rw [hemb]
  exact ((rows_x V c t).prod (Wt V c)).apply p ⟨10000 * t.val + p.val, hr⟩ j rfl

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Every row of the result is in the block of the point numbered by its ten-thousands. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- After the launch the result array is the product of the two arrays the launch found. -/
theorem final (c : Dev nD) : (dat0 V c).arrAt 2 cfg0.N = prod (X V c) (Wt V c) :=
  (dat0 V c).arrAt_eq_of_cover 2 (prod (X V c) (Wt V c)) (fun t _ => flushed_eq V c t) cover

end Cert.KernelIdeal.Region0

end
-- ==== Proof.LibColumnRow.lean ====
/-
  A vector held as a column, and as a row.

  The self-loop weights are computed as a vector of one number per node and then regarded as a column `[R, 1]`; a bias
  is a vector of one number per feature regarded as a row `[1, N]`. Regarding a vector so keeps the order of its
  entries: entry `(r, 0)` of the column is entry `r` of the vector, entry `(0, j)` of the row is entry `j`.
-/
import proofs.«113482_j9122510536959_1_alg».proof.Proof.LibGcnDense

noncomputable section

namespace Cert.Gcn

open Idealize.ShloMosaic Idealize.ShloMosaic.ValueIdx Cert.MatProduct

/-- A vector of `R` entries as a column: entry `(r, 0)` is entry `r`. -/
def asColumn {α : Type} {R : ℕ} (v : (⟨1, ![R]⟩ : Shape).Idx → α) : (⟨2, ![R, 1]⟩ : Shape).Idx → α :=
  fun i => v (ix1 (rowOf i))

/-- A vector of `N` entries as a row: entry `(0, j)` is entry `j`. -/
def asRow {α : Type} {N : ℕ} (b : (⟨1, ![N]⟩ : Shape).Idx → α) : (⟨2, ![1, N]⟩ : Shape).Idx → α :=
  fun i => b (ix1 (colOf i))

theorem asColumn_apply {α : Type} {R : ℕ} (v : (⟨1, ![R]⟩ : Shape).Idx → α) (r : Fin R) (z : Fin 1) :
    asColumn v (ix2 r z) = v (ix1 r) := rfl

theorem asRow_apply {α : Type} {N : ℕ} (b : (⟨1, ![N]⟩ : Shape).Idx → α) (z : Fin 1) (j : Fin N) :
    asRow b (ix2 z j) = b (ix1 j) := rfl

/-- The cast of a vector to the column shape is the vector as a column: the two indices have the same place in
    row-major order, `r · 1 + 0 = r`. -/
theorem shapeCast_column {α : Type} {R : ℕ} (v : (⟨1, ![R]⟩ : Shape).Idx → α)
    (h : (⟨1, ![R]⟩ : Shape).ShapeCasts ⟨2, ![R, 1]⟩) : shapeCast ⟨2, ![R, 1]⟩ v h = asColumn v := by
  funext i
  refine shapeCast_apply v h i (ix1 (rowOf i)) ?_
  rw [Shape.rowMajor_val_one, Shape.rowMajor_val_two]
  show (i 0).val = (i 0).val * 1 + (i 1).val
  have := (i 1).isLt
  have h1 : (i 1).val < 1 := this
  omega

/-- The cast of a vector to the row shape is the vector as a row: `0 · N + j = j`. -/
theorem shapeCast_row {α : Type} {N : ℕ} (b : (⟨1, ![N]⟩ : Shape).Idx → α)
    (h : (⟨1, ![N]⟩ : Shape).ShapeCasts ⟨2, ![1, N]⟩) : shapeCast ⟨2, ![1, N]⟩ b h = asRow b := by
  funext i
  refine shapeCast_apply b h i (ix1 (colOf i)) ?_
  rw [Shape.rowMajor_val_one, Shape.rowMajor_val_two]
  show (i 1).val = (i 0).val * N + (i 1).val
  have := (i 0).isLt
  have h0 : (i 0).val < 1 := this
  have : (i 0).val = 0 := by omega
  rw [this, Nat.zero_mul, Nat.zero_add]

end Cert.Gcn

end
-- ==== Proof.RefLayers.lean ====
/-
  The reference's layers, each as one product and one combination.

  The reference computes a layer on whole arrays: the projection `h = x · w` as one contraction; then the sum gathered
  along the edges; then `(agg + h · d) + b`, the self-loop weights `d = dis · dis` spread from a vector along the
  features and the bias spread from a vector down the nodes; and, for the first two layers, the maximum with zero.
  Read at an entry `(r, j)` this is `(agg (r, j) + h (r, j) · d (r)) + b (j)`, which is the combination of
  `agg`, `h`, the vector `d` as a column and the vector `b` as a row — the product taken in the other order, and a
  product of extended reals does not depend on the order of its factors.
-/
import proofs.«113482_j9122510536959_1_alg».proof.Proof.Gen.ReferenceIdeal.Read
import proofs.«113482_j9122510536959_1_alg».proof.Proof.LibColumnRow

noncomputable section

namespace Cert.ReferenceIdeal.Layers

open Cert.ReferenceIdeal Cert.ReferenceIdeal.Read
open Idealize.ShloMosaic Idealize.ShloMosaic.TcCoe Idealize.ShloMosaic.ValueIdx
open Cert.MatProduct Cert.Gcn

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))

/-! ## The projections -/

/-- The first layer's projection is the product of the features and the first weight matrix. -/
theorem proj1 : val_main_v11 (F := Ideal) x0 x2 = prod (M := 100000) (K := 64) (N := 64) x0 x2 :=
  dotGeneral_eq_prod (M := 100000) (K := 64) (N := 64) none _ x0 x2

/-- The second layer's projection is the product of the first layer's output and the second weight matrix. -/
theorem proj2 : val_main_v49 (F := Ideal) x0 x1 x2 x3 x4
    = prod (M := 100000) (K := 64) (N := 64) (val_main_v48 (F := Ideal) x0 x1 x2 x3) x4 :=
  dotGeneral_eq_prod (M := 100000) (K := 64) (N := 64) none _ (val_main_v48 (F := Ideal) x0 x1 x2 x3) x4

/-- The third layer's projection is the product of the second layer's output and the third weight matrix. -/
theorem proj3 : val_main_v87 (F := Ideal) x0 x1 x2 x3 x4 x5 x6
    = prod (M := 100000) (K := 64) (N := 32) (val_main_v86 (F := Ideal) x0 x1 x2 x3 x4 x5) x6 :=
  dotGeneral_eq_prod (M := 100000) (K := 64) (N := 32) none _ (val_main_v86 (F := Ideal) x0 x1 x2 x3 x4 x5) x6

/-! ## The edge weights and the self-loop weights are computed once per layer, from the edges alone -/

theorem norm2 : val_main_v64 (F := Ideal) x1 = val_main_v26 (F := Ideal) x1 := rfl
theorem norm3 : val_main_v102 (F := Ideal) x1 = val_main_v26 (F := Ideal) x1 := rfl
theorem selfw2 : val_main_v78 (F := Ideal) x1 = val_main_v40 (F := Ideal) x1 := rfl
theorem selfw3 : val_main_v116 (F := Ideal) x1 = val_main_v40 (F := Ideal) x1 := rfl

/-! ## The combinations -/

/-- The first layer's output is the rectified combination of its gathered sum, its projection, the self-loop weights as a column and the first bias as a row. -/
theorem comb1 : val_main_v48 (F := Ideal) x0 x1 x2 x3 = rectify (combine (R := 100000) (N := 64) (val_main_v39 x0 x1 x2) (val_main_v11 x0 x2) (asColumn (val_main_v40 x1)) (asRow x3)) := by
  funext i
  obtain ⟨r, j, rfl⟩ : ∃ (r : Fin 100000) (j : Fin 64), i = ix2 r j := ⟨rowOf i, colOf i, eq_row_col i⟩
  rw [val_main_v48_apply, val_main_v47_apply, val_main_v44_apply, val_main_v43_apply, val_main_v42_apply, val_main_v41_apply, val_main_v46_apply, val_main_v45_apply, val_main_call0_v0_apply, val_main_call0_cst_apply]
  have e1 : idx_main_v41 (idx_main_v42 (ix2 r j)) = ix1 r := funext fun a => match a with | ⟨0, _⟩ => rfl
  have e2 : idx_main_v45 (idx_main_v46 (ix2 r j)) = ix1 j := funext fun a => match a with | ⟨0, _⟩ => rfl
  rw [e1, e2]
  show max ((val_main_v39 x0 x1 x2 (ix2 r j) + val_main_v11 x0 x2 (ix2 r j) * val_main_v40 x1 (ix1 r)) + x3 (ix1 j)) (Ideal.ofBits .f32 0x00000000#32)
     = max ((val_main_v39 x0 x1 x2 (ix2 r j) + val_main_v40 x1 (ix1 r) * val_main_v11 x0 x2 (ix2 r j)) + x3 (ix1 j)) (Ideal.ofBits .f32 0x00000000#32)
  rw [mul_comm]

/-- The second layer's output, likewise. -/
theorem comb2 : val_main_v86 (F := Ideal) x0 x1 x2 x3 x4 x5 = rectify (combine (R := 100000) (N := 64) (val_main_v77 x0 x1 x2 x3 x4) (val_main_v49 x0 x1 x2 x3 x4) (asColumn (val_main_v78 x1)) (asRow x5)) := by
  funext i
  obtain ⟨r, j, rfl⟩ : ∃ (r : Fin 100000) (j : Fin 64), i = ix2 r j := ⟨rowOf i, colOf i, eq_row_col i⟩
  rw [val_main_v86_apply, val_main_v85_apply, val_main_v82_apply, val_main_v81_apply, val_main_v80_apply, val_main_v79_apply, val_main_v84_apply, val_main_v83_apply, val_main_call1_v0_apply, val_main_call1_cst_apply]
  have e1 : idx_main_v79 (idx_main_v80 (ix2 r j)) = ix1 r := funext fun a => match a with | ⟨0, _⟩ => rfl
  have e2 : idx_main_v83 (idx_main_v84 (ix2 r j)) = ix1 j := funext fun a => match a with | ⟨0, _⟩ => rfl
  rw [e1, e2]
  show max ((val_main_v77 x0 x1 x2 x3 x4 (ix2 r j) + val_main_v49 x0 x1 x2 x3 x4 (ix2 r j) * val_main_v78 x1 (ix1 r)) + x5 (ix1 j)) (Ideal.ofBits .f32 0x00000000#32)
     = max ((val_main_v77 x0 x1 x2 x3 x4 (ix2 r j) + val_main_v78 x1 (ix1 r) * val_main_v49 x0 x1 x2 x3 x4 (ix2 r j)) + x5 (ix1 j)) (Ideal.ofBits .f32 0x00000000#32)
  rw [mul_comm]

/-- The third layer's output is the combination itself: no maximum is taken. -/
theorem comb3 : val_main_v123 (F := Ideal) x0 x1 x2 x3 x4 x5 x6 x7 = combine (R := 100000) (N := 32) (val_main_v115 x0 x1 x2 x3 x4 x5 x6) (val_main_v87 x0 x1 x2 x3 x4 x5 x6) (asColumn (val_main_v116 x1)) (asRow x7) := by
  funext i
  obtain ⟨r, j, rfl⟩ : ∃ (r : Fin 100000) (j : Fin 32), i = ix2 r j := ⟨rowOf i, colOf i, eq_row_col i⟩
  rw [val_main_v123_apply, val_main_v120_apply, val_main_v119_apply, val_main_v118_apply, val_main_v117_apply, val_main_v122_apply, val_main_v121_apply]
  have e1 : idx_main_v117 (idx_main_v118 (ix2 r j)) = ix1 r := funext fun a => match a with | ⟨0, _⟩ => rfl
  have e2 : idx_main_v121 (idx_main_v122 (ix2 r j)) = ix1 j := funext fun a => match a with | ⟨0, _⟩ => rfl
  rw [e1, e2]
  show (val_main_v115 x0 x1 x2 x3 x4 x5 x6 (ix2 r j) + val_main_v87 x0 x1 x2 x3 x4 x5 x6 (ix2 r j) * val_main_v116 x1 (ix1 r)) + x7 (ix1 j)
     = (val_main_v115 x0 x1 x2 x3 x4 x5 x6 (ix2 r j) + val_main_v116 x1 (ix1 r) * val_main_v87 x0 x1 x2 x3 x4 x5 x6 (ix2 r j)) + x7 (ix1 j)
  rw [mul_comm]

end Cert.ReferenceIdeal.Layers

end
-- ==== Proof.FoldA.lean ====
/-
  The idealized kernel's buffers, walked forward from the launch: the first host stretch and the first projection.

  The first host stretch cuts the two rows of the edge list into the source and destination endpoints, counts the edges
  into each node, adds one, takes the reciprocal square root (`dis`), and from it computes once what every layer uses:
  the edge weights `dis (src) · dis (dst)` and the self-loop weights `dis · dis`, the latter regarded as a column. Each
  is the value the reference computes for the same quantity, operation for operation. The first launch then leaves the
  product of the node features and the first weight matrix, which is the reference's first projection. The arguments,
  and everything the stretch computed, are untouched by the launch.
-/
import proofs.«113482_j9122510536959_1_alg».proof.Proof.Gen.KernelIdeal.Frame
import proofs.«113482_j9122510536959_1_alg».proof.Proof.Gen.ReferenceIdeal.Read
import proofs.«113482_j9122510536959_1_alg».proof.Proof.Region0
import proofs.«113482_j9122510536959_1_alg».proof.Proof.RefLayers

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Cert.MatProduct Cert.Gcn

variable (m : (ℓ : Loc nD τ sig) → Buf (Elt Ideal) ℓ) (ρ : Dev nD → PrngReg) (c : Dev nD)

/-- The arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

/-! ## After the first host stretch -/

theorem W1_v1 : W1 m ρ c (Proc.devRef .tc main_v1) = Cert.ReferenceIdeal.Read.val_main_v1 (F := Ideal) (a1 m c) := by
  show StableHlo.after hostOps0 (W0 m ρ c) (Proc.devRef .tc main_v1) = _
  after_results_simp
  all_goals rfl

theorem W1_v3 : W1 m ρ c (Proc.devRef .tc main_v3) = Cert.ReferenceIdeal.Read.val_main_v3 (F := Ideal) (a1 m c) := by
  show StableHlo.after hostOps0 (W0 m ρ c) (Proc.devRef .tc main_v3) = _
  after_results_simp
  all_goals rfl

theorem W1_v27 : W1 m ρ c (Proc.devRef .tc main_v27) = Cert.ReferenceIdeal.Read.val_main_v26 (F := Ideal) (a1 m c) := by
  show StableHlo.after hostOps0 (W0 m ρ c) (Proc.devRef .tc main_v27) = _
  after_results_simp
  all_goals rfl

/-- The self-loop weights, regarded as a column. -/
theorem W1_v12 : W1 m ρ c (Proc.devRef .tc main_v12) = asColumn (R := 100000) (Cert.ReferenceIdeal.Read.val_main_v40 (F := Ideal) (a1 m c)) := by
  show StableHlo.after hostOps0 (W0 m ρ c) (Proc.devRef .tc main_v12) = _
  after_results_simp
  exact shapeCast_column (R := 100000) (Cert.ReferenceIdeal.Read.val_main_v40 (F := Ideal) (a1 m c)) _

theorem W1_arg0 : W1 m ρ c (Proc.devRef .tc main_arg0) = a0 m c := by
  show StableHlo.after hostOps0 (W0 m ρ c) (Proc.devRef .tc main_arg0) = _
  after_results_simp
  all_goals rfl

theorem W1_arg2 : W1 m ρ c (Proc.devRef .tc main_arg2) = a2 m c := by
  show StableHlo.after hostOps0 (W0 m ρ c) (Proc.devRef .tc main_arg2) = _
  after_results_simp
  all_goals rfl

theorem W1_arg3 : W1 m ρ c (Proc.devRef .tc main_arg3) = a3 m c := by
  show StableHlo.after hostOps0 (W0 m ρ c) (Proc.devRef .tc main_arg3) = _
  after_results_simp
  all_goals rfl

theorem W1_arg4 : W1 m ρ c (Proc.devRef .tc main_arg4) = a4 m c := by
  show StableHlo.after hostOps0 (W0 m ρ c) (Proc.devRef .tc main_arg4) = _
  after_results_simp
  all_goals rfl

theorem W1_arg5 : W1 m ρ c (Proc.devRef .tc main_arg5) = a5 m c := by
  show StableHlo.after hostOps0 (W0 m ρ c) (Proc.devRef .tc main_arg5) = _
  after_results_simp
  all_goals rfl

theorem W1_arg6 : W1 m ρ c (Proc.devRef .tc main_arg6) = a6 m c := by
  show StableHlo.after hostOps0 (W0 m ρ c) (Proc.devRef .tc main_arg6) = _
  after_results_simp
  all_goals rfl

theorem W1_arg7 : W1 m ρ c (Proc.devRef .tc main_arg7) = a7 m c := by
  show StableHlo.after hostOps0 (W0 m ρ c) (Proc.devRef .tc main_arg7) = _
  after_results_simp
  all_goals rfl

/-! ## After the first projection -/

/-- The first launch leaves the product of the features and the first weight matrix: the reference's projection. -/
theorem W2_v28 : W2 m ρ c (Proc.devRef .tc main_v28) = Cert.ReferenceIdeal.Read.val_main_v11 (F := Ideal) (a0 m c) (a2 m c) := by
  rw [Cert.ReferenceIdeal.Layers.proj1]
  refine (W2_arr m ρ c 2).trans ((Region0.final (V1 m ρ) c).trans ?_)
  exact congrArg₂ (prod (M := 100000) (K := 64) (N := 64)) (W1_arg0 m ρ c) (W1_arg2 m ρ c)

theorem W2_v1 : W2 m ρ c (Proc.devRef .tc main_v1) = Cert.ReferenceIdeal.Read.val_main_v1 (F := Ideal) (a1 m c) :=
  (W2_of_ne m ρ c main_v1 (by decide)).trans (W1_v1 m ρ c)

theorem W2_v3 : W2 m ρ c (Proc.devRef .tc main_v3) = Cert.ReferenceIdeal.Read.val_main_v3 (F := Ideal) (a1 m c) :=
  (W2_of_ne m ρ c main_v3 (by decide)).trans (W1_v3 m ρ c)

theorem W2_v27 : W2 m ρ c (Proc.devRef .tc main_v27) = Cert.ReferenceIdeal.Read.val_main_v26 (F := Ideal) (a1 m c) :=
  (W2_of_ne m ρ c main_v27 (by decide)).trans (W1_v27 m ρ c)

theorem W2_v12 : W2 m ρ c (Proc.devRef .tc main_v12) = asColumn (R := 100000) (Cert.ReferenceIdeal.Read.val_main_v40 (F := Ideal) (a1 m c)) :=
  (W2_of_ne m ρ c main_v12 (by decide)).trans (W1_v12 m ρ c)

theorem W2_arg3 : W2 m ρ c (Proc.devRef .tc main_arg3) = a3 m c :=
  (W2_of_ne m ρ c main_arg3 (by decide)).trans (W1_arg3 m ρ c)

theorem W2_arg4 : W2 m ρ c (Proc.devRef .tc main_arg4) = a4 m c :=
  (W2_of_ne m ρ c main_arg4 (by decide)).trans (W1_arg4 m ρ c)

theorem W2_arg5 : W2 m ρ c (Proc.devRef .tc main_arg5) = a5 m c :=
  (W2_of_ne m ρ c main_arg5 (by decide)).trans (W1_arg5 m ρ c)

theorem W2_arg6 : W2 m ρ c (Proc.devRef .tc main_arg6) = a6 m c :=
  (W2_of_ne m ρ c main_arg6 (by decide)).trans (W1_arg6 m ρ c)

theorem W2_arg7 : W2 m ρ c (Proc.devRef .tc main_arg7) = a7 m c :=
  (W2_of_ne m ρ c main_arg7 (by decide)).trans (W1_arg7 m ρ c)

end Cert.KernelIdeal.Stages

end
-- ==== Proof.Region1.lean ====
/-
  The first layer's combination, block of rows by block of rows.

  Launch 1 computes, ten thousand rows at a time, `(agg + d · h) + b` and its maximum with zero: grid point `t` reads rows
  10000·t … 10000·t + 9999 of the gathered sum `agg`, of the projection `h` and of the self-loop column `d`, and the
  whole bias row `b`; it spreads the column along the features and the row down the nodes and writes the rows of the
  same numbers of the result. Entry `(r, j)` of the combination reads row `r` of `agg`, `h` and `d` only, so what
  point `t` writes is the block of rows of the combination of the whole arrays; the ten blocks tile the result.
-/
import proofs.«113482_j9122510536959_1_alg».proof.Proof.Gen.KernelIdeal.Frame
import proofs.«113482_j9122510536959_1_alg».proof.Proof.LibGcnDense

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProduct Cert.Bridge Cert.Gcn

-- the buffers as the launch finds them
variable (V : (c : Dev nD) → (b : Ref sig .tc) → Buf (Elt Ideal) ((c : Thread nD τ).loc b))

/-- The gathered sum, the projection, the self-loop column, the bias row: the arrays of the four input windows. -/
abbrev A (c : Dev nD) : (⟨2, ![100000, 64]⟩ : Shape).Idx → EReal := V c main_v41
abbrev H (c : Dev nD) : (⟨2, ![100000, 64]⟩ : Shape).Idx → EReal := V c main_v28
abbrev D (c : Dev nD) : (⟨2, ![100000, 1]⟩ : Shape).Idx → EReal := V c main_v12
abbrev Bv (c : Dev nD) : (⟨2, ![1, 64]⟩ : Shape).Idx → EReal := V c main_v42

theorem hz : (![0, 0] : Fin 2 → Nat) = fun _ => 0 := funext fun a => by fin_cases a <;> rfl

/-- The printed index maps over the ten grid points: the row-blocked windows move with the point, the bias window
    stays at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the body leaves in the output block: the combination of its four input blocks, rectified. -/
theorem out_eq (x0 x1 : Vec Ideal S10000x64 .f32) (x2 : Vec Ideal S10000x1 .f32) (x3 : Vec Ideal S1x64 .f32) :
    out1_4 x0 x1 x2 x3 = rectify (combine (R := 10000) (N := 64) x0 x1 x2 x3) := by
  unfold out1_4
  rw [View.canon_unit_zero hz]
  simp only [View.ld_unit_zero (S := S10000x64) hz, View.ld_unit_zero (S := S10000x1) hz, View.ld_unit_zero (S := S1x64) hz]
  exact (maximumf_zero_eq (M := 10000) (N := 64) _).trans (congrArg rectify (combineBody_eq (M := 10000) (N := 64) x0 x1 x2 x3 _ _ _ _ _))

/-- A row-blocked window's block at point `t` holds rows 10000·t … of its array. -/
theorem rows_agg (c : Dev nD) (t : Fin cfg1.N) :
    RowsAt (M := 10000) (R := 100000) (N := 64) (10000 * t.val) (iblk1 V c 0 t) (A V c) := by
  intro p r j e
  obtain ⟨e0, e1, -⟩ := idx_facts t
  show V c main_v41 (((cfg1.win 0).blk t).view.emb (ix2 p j)) = V c main_v41 (ix2 r j)
  refine congrArg (V c main_v41) (funext fun a => Fin.ext ?_)
  match a with
  | ⟨0, _⟩ => show win1_0.index t (0 : Fin 2) * 10000 + 1 * p.val = r.val; omega
  | ⟨1, _⟩ => show win1_0.index t (1 : Fin 2) * 64 + 1 * j.val = j.val; omega

theorem rows_h (c : Dev nD) (t : Fin cfg1.N) :
    RowsAt (M := 10000) (R := 100000) (N := 64) (10000 * t.val) (iblk1 V c 1 t) (H V c) := by
  intro p r j e
  obtain ⟨-, -, e2, e3, -⟩ := idx_facts t
  show V c main_v28 (((cfg1.win 1).blk t).view.emb (ix2 p j)) = V c main_v28 (ix2 r j)
  refine congrArg (V c main_v28) (funext fun a => Fin.ext ?_)
  match a with
  | ⟨0, _⟩ => show win1_1.index t (0 : Fin 2) * 10000 + 1 * p.val = r.val; omega
  | ⟨1, _⟩ => show win1_1.index t (1 : Fin 2) * 64 + 1 * j.val = j.val; omega

theorem rows_d (c : Dev nD) (t : Fin cfg1.N) :
    RowsAt (M := 10000) (R := 100000) (N := 1) (10000 * t.val) (iblk1 V c 2 t) (D V c) := by
  intro p r j e
  obtain ⟨-, -, -, -, e4, e5, -⟩ := idx_facts t
  show V c main_v12 (((cfg1.win 2).blk t).view.emb (ix2 p j)) = V c main_v12 (ix2 r j)
  refine congrArg (V c main_v12) (funext fun a => Fin.ext ?_)
  match a with
  | ⟨0, _⟩ => show win1_2.index t (0 : Fin 2) * 10000 + 1 * p.val = r.val; omega
  | ⟨1, _⟩ => show win1_2.index t (1 : Fin 2) * 1 + 1 * j.val = j.val; omega

/-- The bias window's block is the whole bias row, at every point. -/
theorem whole_b (c : Dev nD) (t : Fin cfg1.N) : (iblk1 V c 3 t : (⟨2, ![1, 64]⟩ : Shape).Idx → EReal) = Bv V c := by
  funext y
  obtain ⟨-, -, -, -, -, -, e6, e7, -⟩ := idx_facts t
  show V c main_v42 (((cfg1.win 3).blk t).view.emb y) = V c main_v42 y
  refine congrArg (V c main_v42) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- What point `t` writes back is the block of rows 10000·t … of the combination of the whole arrays. -/
theorem flushed_eq (c : Dev nD) (t : Fin cfg1.N) :
    (dat1 V c).flushed 4 t = ((cfg1.win 4).blk t).view.read (Elt Ideal) (rectify (combine (A V c) (H V c) (D V c) (Bv V c))) := by
  show (cfg1.win 4).cut (grid1.coords t) ((dat1 V c).after 4 t) = _
  rw [after1_4, out_eq, whole_b]
  funext y
  obtain ⟨p, j, rfl⟩ : ∃ (p : Fin 10000) (j : Fin 64), y = ix2 p j := ⟨rowOf y, colOf y, eq_row_col y⟩
  obtain ⟨-, -, -, -, -, -, -, -, e8, e9⟩ := idx_facts t
  have ht : t.val < 10 := lt_of_lt_of_eq t.isLt (N_1 : cfg1.N = 10)
  have hr : 10000 * t.val + p.val < 100000 := by have := p.isLt; omega
  have hemb : ((cfg1.win 4).blk t).view.emb (ix2 p j) = ix2 (⟨10000 * t.val + p.val, hr⟩ : Fin 100000) j := by
    funext a
    refine Fin.ext ?_
    match a with
    | ⟨0, _⟩ => show win1_4.index t (0 : Fin 2) * 10000 + 1 * p.val = 10000 * t.val + p.val; omega
    | ⟨1, _⟩ => show win1_4.index t (1 : Fin 2) * 64 + 1 * j.val = j.val; omega
  show rectify (combine (iblk1 V c 0 t) (iblk1 V c 1 t) (iblk1 V c 2 t) (Bv V c)) (ix2 p j)
    = rectify (combine (A V c) (H V c) (D V c) (Bv V c)) (((cfg1.win 4).blk t).view.emb (ix2 p j))
  rw [hemb]
  exact (rowsAt_rectify (rowsAt_combine (Bv V c) (rows_agg V c t) (rows_h V c t) (rows_d V c t))).apply p ⟨10000 * t.val + p.val, hr⟩ j rfl

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Every row of the result is in the block of the point numbered by its ten-thousands. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_4 _, ?_⟩
  rw [mem_blk]
  obtain ⟨-, -, -, -, -, -, -, -, e8, e9⟩ := idx_facts ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e8]; show (i 0).val / 10000 * 10000 ≤ (i 0).val ∧ (i 0).val < (i 0).val / 10000 * 10000 + 10000; omega
  | ⟨1, _⟩ =>
    show win1_4.index _ (1 : Fin 2) * 64 ≤ (i 1).val ∧ (i 1).val < win1_4.index _ (1 : Fin 2) * 64 + 64
    rw [e9]; omega

/-- After the launch the result array is the combination of the four arrays the launch found. -/
theorem final (c : Dev nD) : (dat1 V c).arrAt 4 cfg1.N = rectify (combine (A V c) (H V c) (D V c) (Bv V c)) :=
  (dat1 V c).arrAt_eq_of_cover 4 (rectify (combine (A V c) (H V c) (D V c) (Bv V c))) (fun t _ => flushed_eq V c t) cover

end Cert.KernelIdeal.Region1

end
-- ==== Proof.Region2.lean ====
/-
  The second projection, block of rows by block of rows.

  Launch 2 computes `h = x · w` ten thousand rows at a time: grid point `t` reads rows 10000·t … 10000·t + 9999 of
  `x` and the whole of `w`, multiplies them on the matrix unit (its operands narrowed to the 16-bit format, which on
  the extended reals changes nothing, accumulating into zero) and writes the rows of the same numbers of the result.
  Row `r` of a product reads row `r` of the left factor only, so what point `t` writes is the block of rows of the
  whole product `x · w`; the ten blocks tile the result, so after the launch the result array is `x · w`.
-/
import proofs.«113482_j9122510536959_1_alg».proof.Proof.Gen.KernelIdeal.Frame
import proofs.«113482_j9122510536959_1_alg».proof.Proof.LibGcnDense

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProduct Cert.Bridge Cert.Gcn

-- the buffers as the launch finds them
variable (V : (c : Dev nD) → (b : Ref sig .tc) → Buf (Elt Ideal) ((c : Thread nD τ).loc b))

/-- The left factor, the right factor: the arrays of the launch's two input windows. -/
abbrev X (c : Dev nD) : (⟨2, ![100000, 64]⟩ : Shape).Idx → EReal := V c main_v43
abbrev Wt (c : Dev nD) : (⟨2, ![64, 64]⟩ : Shape).Idx → EReal := V c main_arg4

theorem hz : (![0, 0] : Fin 2 → Nat) = fun _ => 0 := funext fun a => by fin_cases a <;> rfl

/-- The printed index maps over the ten grid points: the row-blocked windows move with the point, the weight window
    stays at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the body leaves in the output block: the product of its two input blocks. -/
theorem out_eq (x0 : Vec Ideal S10000x64 .f32) (x1 : Vec Ideal S64x64 .f32) :
    out2_2 x0 x1 = prod (M := 10000) (K := 64) (N := 64) x0 x1 := by
  unfold out2_2
  rw [View.canon_unit_zero hz]
  simp only [View.ld_unit_zero (S := S10000x64) hz, View.ld_unit_zero (S := S64x64) hz]
  exact cast_narrowed_matmul_eq_prod (M := 10000) (K := 64) (N := 64) x0 x1 _ _

/-- The left window's block at point `t` holds rows 10000·t … of the left factor. -/
theorem rows_x (c : Dev nD) (t : Fin cfg2.N) :
    RowsAt (M := 10000) (R := 100000) (N := 64) (10000 * t.val) (iblk2 V c 0 t) (X V c) := by
  intro p r j e
  obtain ⟨e0, e1, -⟩ := idx_facts t
  show V c main_v43 (((cfg2.win 0).blk t).view.emb (ix2 p j)) = V c main_v43 (ix2 r j)
  refine congrArg (V c main_v43) (funext fun a => Fin.ext ?_)
  match a with
  | ⟨0, _⟩ => show win2_0.index t (0 : Fin 2) * 10000 + 1 * p.val = r.val; omega
  | ⟨1, _⟩ => show win2_0.index t (1 : Fin 2) * 64 + 1 * j.val = j.val; omega

/-- The weight window's block is the whole weight matrix, at every point. -/
theorem whole_w (c : Dev nD) (t : Fin cfg2.N) : (iblk2 V c 1 t : (⟨2, ![64, 64]⟩ : Shape).Idx → EReal) = Wt V c := by
  funext y
  obtain ⟨-, -, e2, e3, -⟩ := idx_facts t
  show V c main_arg4 (((cfg2.win 1).blk t).view.emb y) = V c main_arg4 y
  refine congrArg (V c main_arg4) (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- What point `t` writes back is the block of rows 10000·t … of the whole product. -/
theorem flushed_eq (c : Dev nD) (t : Fin cfg2.N) :
    (dat2 V c).flushed 2 t = ((cfg2.win 2).blk t).view.read (Elt Ideal) (prod (X V c) (Wt V c)) := by
  show (cfg2.win 2).cut (grid2.coords t) ((dat2 V c).after 2 t) = _
  rw [after2_2, out_eq, whole_w]
  funext y
  obtain ⟨p, j, rfl⟩ : ∃ (p : Fin 10000) (j : Fin 64), y = ix2 p j := ⟨rowOf y, colOf y, eq_row_col y⟩
  obtain ⟨-, -, -, -, e4, e5⟩ := idx_facts t
  have ht : t.val < 10 := lt_of_lt_of_eq t.isLt (N_2 : cfg2.N = 10)
  have hr : 10000 * t.val + p.val < 100000 := by have := p.isLt; omega
  have hemb : ((cfg2.win 2).blk t).view.emb (ix2 p j) = ix2 (⟨10000 * t.val + p.val, hr⟩ : Fin 100000) j := by
    funext a
    refine Fin.ext ?_
    match a with
    | ⟨0, _⟩ => show win2_2.index t (0 : Fin 2) * 10000 + 1 * p.val = 10000 * t.val + p.val; omega
    | ⟨1, _⟩ => show win2_2.index t (1 : Fin 2) * 64 + 1 * j.val = j.val; omega
  show prod (iblk2 V c 0 t) (Wt V c) (ix2 p j) = prod (X V c) (Wt V c) (((cfg2.win 2).blk t).view.emb (ix2 p j))
  rw [hemb]
  exact ((rows_x V c t).prod (Wt V c)).apply p ⟨10000 * t.val + p.val, hr⟩ j rfl

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Every row of the result is in the block of the point numbered by its ten-thousands. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_blk]
  obtain ⟨-, -, -, -, e4, e5⟩ := idx_facts ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e5]; omega

/-- After the launch the result array is the product of the two arrays the launch found. -/
theorem final (c : Dev nD) : (dat2 V c).arrAt 2 cfg2.N = prod (X V c) (Wt V c) :=
  (dat2 V c).arrAt_eq_of_cover 2 (prod (X V c) (Wt V c)) (fun t _ => flushed_eq V c t) cover

end Cert.KernelIdeal.Region2

end
-- ==== Proof.FoldB.lean ====
/-
  The idealized kernel's buffers, walked forward: the first layer's gathered sum and combination, the second projection.

  The second host stretch gathers the rows of the first projection at the source endpoints (an endpoint below zero is
  first wrapped around the node count), scales each by its edge weight, and adds them into the rows named by the
  destination endpoints, starting from zero; it also regards the first bias as a row. The gathered sum is, operation
  for operation, the reference's. The next launch leaves the rectified combination of that sum, the projection, the
  self-loop column and the bias row, which is the reference's first-layer output; the launch after it leaves the product
  of that output and the second weight matrix, the reference's second projection.
-/
import proofs.«113482_j9122510536959_1_alg».proof.Proof.FoldA
import proofs.«113482_j9122510536959_1_alg».proof.Proof.Region1
import proofs.«113482_j9122510536959_1_alg».proof.Proof.Region2

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Cert.MatProduct Cert.Gcn

variable (m : (ℓ : Loc nD τ sig) → Buf (Elt Ideal) ℓ) (ρ : Dev nD → PrngReg) (c : Dev nD)

/-! ## After the second host stretch -/

/-- The first layer's gathered sum. -/
theorem W3_v41 : W3 m ρ c (Proc.devRef .tc main_v41) = Cert.ReferenceIdeal.Read.val_main_v39 (F := Ideal) (a0 m c) (a1 m c) (a2 m c) := by
  show StableHlo.after hostOps1 (W2 m ρ c) (Proc.devRef .tc main_v41) = _
  after_results_simp
  rw [W2_v28 m ρ c, W2_v1 m ρ c, W2_v27 m ρ c, W2_v3 m ρ c]
  all_goals rfl

/-- The first bias, regarded as a row. -/
theorem W3_v42 : W3 m ρ c (Proc.devRef .tc main_v42) = asRow (N := 64) (a3 m c) := by
  show StableHlo.after hostOps1 (W2 m ρ c) (Proc.devRef .tc main_v42) = _
  after_results_simp
  rw [W2_arg3 m ρ c]
  exact shapeCast_row (N := 64) (a3 m c) _

theorem W3_v28 : W3 m ρ c (Proc.devRef .tc main_v28) = Cert.ReferenceIdeal.Read.val_main_v11 (F := Ideal) (a0 m c) (a2 m c) := by
  show StableHlo.after hostOps1 (W2 m ρ c) (Proc.devRef .tc main_v28) = _
  after_results_simp
  exact W2_v28 m ρ c

theorem W3_v12 : W3 m ρ c (Proc.devRef .tc main_v12) = asColumn (R := 100000) (Cert.ReferenceIdeal.Read.val_main_v40 (F := Ideal) (a1 m c)) := by
  show StableHlo.after hostOps1 (W2 m ρ c) (Proc.devRef .tc main_v12) = _
  after_results_simp
  exact W2_v12 m ρ c

theorem W3_v1 : W3 m ρ c (Proc.devRef .tc main_v1) = Cert.ReferenceIdeal.Read.val_main_v1 (F := Ideal) (a1 m c) := by
  show StableHlo.after hostOps1 (W2 m ρ c) (Proc.devRef .tc main_v1) = _
  after_results_simp
  exact W2_v1 m ρ c

theorem W3_v3 : W3 m ρ c (Proc.devRef .tc main_v3) = Cert.ReferenceIdeal.Read.val_main_v3 (F := Ideal) (a1 m c) := by
  show StableHlo.after hostOps1 (W2 m ρ c) (Proc.devRef .tc main_v3) = _
  after_results_simp
  exact W2_v3 m ρ c

theorem W3_v27 : W3 m ρ c (Proc.devRef .tc main_v27) = Cert.ReferenceIdeal.Read.val_main_v26 (F := Ideal) (a1 m c) := by
  show StableHlo.after hostOps1 (W2 m ρ c) (Proc.devRef .tc main_v27) = _
  after_results_simp
  exact W2_v27 m ρ c

theorem W3_arg4 : W3 m ρ c (Proc.devRef .tc main_arg4) = a4 m c := by
  show StableHlo.after hostOps1 (W2 m ρ c) (Proc.devRef .tc main_arg4) = _
  after_results_simp
  exact W2_arg4 m ρ c

theorem W3_arg5 : W3 m ρ c (Proc.devRef .tc main_arg5) = a5 m c := by
  show StableHlo.after hostOps1 (W2 m ρ c) (Proc.devRef .tc main_arg5) = _
  after_results_simp
  exact W2_arg5 m ρ c

theorem W3_arg6 : W3 m ρ c (Proc.devRef .tc main_arg6) = a6 m c := by
  show StableHlo.after hostOps1 (W2 m ρ c) (Proc.devRef .tc main_arg6) = _
  after_results_simp
  exact W2_arg6 m ρ c

theorem W3_arg7 : W3 m ρ c (Proc.devRef .tc main_arg7) = a7 m c := by
  show StableHlo.after hostOps1 (W2 m ρ c) (Proc.devRef .tc main_arg7) = _
  after_results_simp
  exact W2_arg7 m ρ c

/-! ## After the first combination -/

/-- The launch leaves the reference's first-layer output. -/
theorem W4_v43 : W4 m ρ c (Proc.devRef .tc main_v43) = Cert.ReferenceIdeal.Read.val_main_v48 (F := Ideal) (a0 m c) (a1 m c) (a2 m c) (a3 m c) := by
  rw [Cert.ReferenceIdeal.Layers.comb1]
  refine (W4_arr m ρ c 4).trans ((Region1.final (V3 m ρ) c).trans ?_)
  show rectify (combine (R := 100000) (N := 64) (W3 m ρ c (Proc.devRef .tc main_v41)) (W3 m ρ c (Proc.devRef .tc main_v28)) (W3 m ρ c (Proc.devRef .tc main_v12)) (W3 m ρ c (Proc.devRef .tc main_v42))) = _
  rw [W3_v41 m ρ c, W3_v28 m ρ c, W3_v12 m ρ c, W3_v42 m ρ c]
  all_goals rfl

theorem W4_v1 : W4 m ρ c (Proc.devRef .tc main_v1) = Cert.ReferenceIdeal.Read.val_main_v1 (F := Ideal) (a1 m c) :=
  (W4_of_ne m ρ c main_v1 (by decide)).trans (W3_v1 m ρ c)

theorem W4_v3 : W4 m ρ c (Proc.devRef .tc main_v3) = Cert.ReferenceIdeal.Read.val_main_v3 (F := Ideal) (a1 m c) :=
  (W4_of_ne m ρ c main_v3 (by decide)).trans (W3_v3 m ρ c)

theorem W4_v27 : W4 m ρ c (Proc.devRef .tc main_v27) = Cert.ReferenceIdeal.Read.val_main_v26 (F := Ideal) (a1 m c) :=
  (W4_of_ne m ρ c main_v27 (by decide)).trans (W3_v27 m ρ c)

theorem W4_arg4 : W4 m ρ c (Proc.devRef .tc main_arg4) = a4 m c :=
  (W4_of_ne m ρ c main_arg4 (by decide)).trans (W3_arg4 m ρ c)

theorem W4_arg5 : W4 m ρ c (Proc.devRef .tc main_arg5) = a5 m c :=
  (W4_of_ne m ρ c main_arg5 (by decide)).trans (W3_arg5 m ρ c)

theorem W4_arg6 : W4 m ρ c (Proc.devRef .tc main_arg6) = a6 m c :=
  (W4_of_ne m ρ c main_arg6 (by decide)).trans (W3_arg6 m ρ c)

theorem W4_arg7 : W4 m ρ c (Proc.devRef .tc main_arg7) = a7 m c :=
  (W4_of_ne m ρ c main_arg7 (by decide)).trans (W3_arg7 m ρ c)

/-- The self-loop column is an input of the launch: it is left as found. -/
theorem W4_v12 : W4 m ρ c (Proc.devRef .tc main_v12) = asColumn (R := 100000) (Cert.ReferenceIdeal.Read.val_main_v40 (F := Ideal) (a1 m c)) :=
  ((W4_arr m ρ c 2).trans (((dat1 (V3 m ρ) c).arrAt_in 2 rfl _).trans (A_eq1 (V3 m ρ) c 2))).trans (W3_v12 m ρ c)

/-! ## After the second projection -/

/-- The launch leaves the reference's second projection. -/
theorem W5_v44 : W5 m ρ c (Proc.devRef .tc main_v44) = Cert.ReferenceIdeal.Read.val_main_v49 (F := Ideal) (a0 m c) (a1 m c) (a2 m c) (a3 m c) (a4 m c) := by
  rw [Cert.ReferenceIdeal.Layers.proj2]
  refine (W5_arr m ρ c 2).trans ((Region2.final (V4 m ρ) c).trans ?_)
  exact congrArg₂ (prod (M := 100000) (K := 64) (N := 64)) (W4_v43 m ρ c) (W4_arg4 m ρ c)

theorem W5_v1 : W5 m ρ c (Proc.devRef .tc main_v1) = Cert.ReferenceIdeal.Read.val_main_v1 (F := Ideal) (a1 m c) :=
  (W5_of_ne m ρ c main_v1 (by decide)).trans (W4_v1 m ρ c)

theorem W5_v3 : W5 m ρ c (Proc.devRef .tc main_v3) = Cert.ReferenceIdeal.Read.val_main_v3 (F := Ideal) (a1 m c) :=
  (W5_of_ne m ρ c main_v3 (by decide)).trans (W4_v3 m ρ c)

theorem W5_v27 : W5 m ρ c (Proc.devRef .tc main_v27) = Cert.ReferenceIdeal.Read.val_main_v26 (F := Ideal) (a1 m c) :=
  (W5_of_ne m ρ c main_v27 (by decide)).trans (W4_v27 m ρ c)

theorem W5_v12 : W5 m ρ c (Proc.devRef .tc main_v12) = asColumn (R := 100000) (Cert.ReferenceIdeal.Read.val_main_v40 (F := Ideal) (a1 m c)) :=
  (W5_of_ne m ρ c main_v12 (by decide)).trans (W4_v12 m ρ c)

theorem W5_arg5 : W5 m ρ c (Proc.devRef .tc main_arg5) = a5 m c :=
  (W5_of_ne m ρ c main_arg5 (by decide)).trans (W4_arg5 m ρ c)

theorem W5_arg6 : W5 m ρ c (Proc.devRef .tc main_arg6) = a6 m c :=
  (W5_of_ne m ρ c main_arg6 (by decide)).trans (W4_arg6 m ρ c)

theorem W5_arg7 : W5 m ρ c (Proc.devRef .tc main_arg7) = a7 m c :=
  (W5_of_ne m ρ c main_arg7 (by decide)).trans (W4_arg7 m ρ c)

end Cert.KernelIdeal.Stages

end
-- ==== Proof.Region3.lean ====
/-
  The second layer's combination, block of rows by block of rows.

  Launch 3 computes, ten thousand rows at a time, `(agg + d · h) + b` and its maximum with zero: grid point `t` reads rows
  10000·t … 10000·t + 9999 of the gathered sum `agg`, of the projection `h` and of the self-loop column `d`, and the
  whole bias row `b`; it spreads the column along the features and the row down the nodes and writes the rows of the
  same numbers of the result. Entry `(r, j)` of the combination reads row `r` of `agg`, `h` and `d` only, so what
  point `t` writes is the block of rows of the combination of the whole arrays; the ten blocks tile the result.
-/
import proofs.«113482_j9122510536959_1_alg».proof.Proof.Gen.KernelIdeal.Frame
import proofs.«113482_j9122510536959_1_alg».proof.Proof.LibGcnDense

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProduct Cert.Bridge Cert.Gcn

-- the buffers as the launch finds them
variable (V : (c : Dev nD) → (b : Ref sig .tc) → Buf (Elt Ideal) ((c : Thread nD τ).loc b))

/-- The gathered sum, the projection, the self-loop column, the bias row: the arrays of the four input windows. -/
abbrev A (c : Dev nD) : (⟨2, ![100000, 64]⟩ : Shape).Idx → EReal := V c main_v57
abbrev H (c : Dev nD) : (⟨2, ![100000, 64]⟩ : Shape).Idx → EReal := V c main_v44
abbrev D (c : Dev nD) : (⟨2, ![100000, 1]⟩ : Shape).Idx → EReal := V c main_v12
abbrev Bv (c : Dev nD) : (⟨2, ![1, 64]⟩ : Shape).Idx → EReal := V c main_v58

theorem hz : (![0, 0] : Fin 2 → Nat) = fun _ => 0 := funext fun a => by fin_cases a <;> rfl

/-- The printed index maps over the ten grid points: the row-blocked windows move with the point, the bias window
    stays at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What the body leaves in the output block: the combination of its four input blocks, rectified. -/
theorem out_eq (x0 x1 : Vec Ideal S10000x64 .f32) (x2 : Vec Ideal S10000x1 .f32) (x3 : Vec Ideal S1x64 .f32) :
    out3_4 x0 x1 x2 x3 = rectify (combine (R := 10000) (N := 64) x0 x1 x2 x3) := by
  unfold out3_4
  rw [View.canon_unit_zero hz]
  simp only [View.ld_unit_zero (S := S10000x64) hz, View.ld_unit_zero (S := S10000x1) hz, View.ld_unit_zero (S := S1x64) hz]
  exact (maximumf_zero_eq (M := 10000) (N := 64) _).trans (congrArg rectify (combineBody_eq (M := 10000) (N := 64) x0 x1 x2 x3 _ _ _ _ _))

/-- A row-blocked window's block at point `t` holds rows 10000·t … of its array. -/
theorem rows_agg (c : Dev nD) (t : Fin cfg3.N) :
    RowsAt (M := 10000) (R := 100000) (N := 64) (10000 * t.val) (iblk3 V c 0 t) (A V c) := by
  intro p r j e
  obtain ⟨e0, e1, -⟩ := idx_facts t
  show V c main_v57 (((cfg3.win 0).blk t).view.emb (ix2 p j)) = V c main_v57 (ix2 r j)
  refine congrArg (V c main_v57) (funext fun a => Fin.ext ?_)
  match a with
  | ⟨0, _⟩ => show win3_0.index t (0 : Fin 2) * 10000 + 1 * p.val = r.val; omega
  | ⟨1, _⟩ => show win3_0.index t (1 : Fin 2) * 64 + 1 * j.val = j.val; omega

theorem rows_h (c : Dev nD) (t : Fin cfg3.N) :
    RowsAt (M := 10000) (R := 100000) (N := 64) (10000 * t.val) (iblk3 V c 1 t) (H V c) := by
  intro p r j e
  obtain ⟨-, -, e2, e3, -⟩ := idx_facts t
  show V c main_v44 (((cfg3.win 1).blk t).view.emb (ix2 p j)) = V c main_v44 (ix2 r j)
  refine congrArg (V c main_v44) (funext fun a => Fin.ext ?_)
  match a with
  | ⟨0, _⟩ => show win3_1.index t (0 : Fin 2) * 10000 + 1 * p.val = r.val; omega
  | ⟨1, _⟩ => show win3_1.index t (1 : Fin 2) * 64 + 1 * j.val = j.val; omega

theorem rows_d (c : Dev nD) (t : Fin cfg3.N) :
    RowsAt (M := 10000) (R := 100000) (N := 1) (10000 * t.val) (iblk3 V c 2 t) (D V c) := by
  intro p r j e
  obtain ⟨-, -, -, -, e4, e5, -⟩ := idx_facts t
  show V c main_v12 (((cfg3.win 2).blk t).view.emb (ix2 p j)) = V c main_v12 (ix2 r j)
  refine congrArg (V c main_v12) (funext fun a => Fin.ext ?_)
  match a with
  | ⟨0, _⟩ => show win3_2.index t (0 : Fin 2) * 10000 + 1 * p.val = r.val; omega
  | ⟨1, _⟩ => show win3_2.index t (1 : Fin 2) * 1 + 1 * j.val = j.val; omega

/-- The bias window's block is the whole bias row, at every point. -/
theorem whole_b (c : Dev nD) (t : Fin cfg3.N) : (iblk3 V c 3 t : (⟨2, ![1, 64]⟩ : Shape).Idx → EReal) = Bv V c := by
  funext y
  obtain ⟨-, -, -, -, -, -, e6, e7, -⟩ := idx_facts t
  show V c main_v58 (((cfg3.win 3).blk t).view.emb y) = V c main_v58 y
  refine congrArg (V c main_v58) (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- What point `t` writes back is the block of rows 10000·t … of the combination of the whole arrays. -/
theorem flushed_eq (c : Dev nD) (t : Fin cfg3.N) :
    (dat3 V c).flushed 4 t = ((cfg3.win 4).blk t).view.read (Elt Ideal) (rectify (combine (A V c) (H V c) (D V c) (Bv V c))) := by
  show (cfg3.win 4).cut (grid3.coords t) ((dat3 V c).after 4 t) = _
  rw [after3_4, out_eq, whole_b]
  funext y
  obtain ⟨p, j, rfl⟩ : ∃ (p : Fin 10000) (j : Fin 64), y = ix2 p j := ⟨rowOf y, colOf y, eq_row_col y⟩
  obtain ⟨-, -, -, -, -, -, -, -, e8, e9⟩ := idx_facts t
  have ht : t.val < 10 := lt_of_lt_of_eq t.isLt (N_3 : cfg3.N = 10)
  have hr : 10000 * t.val + p.val < 100000 := by have := p.isLt; omega
  have hemb : ((cfg3.win 4).blk t).view.emb (ix2 p j) = ix2 (⟨10000 * t.val + p.val, hr⟩ : Fin 100000) j := by
    funext a
    refine Fin.ext ?_
    match a with
    | ⟨0, _⟩ => show win3_4.index t (0 : Fin 2) * 10000 + 1 * p.val = 10000 * t.val + p.val; omega
    | ⟨1, _⟩ => show win3_4.index t (1 : Fin 2) * 64 + 1 * j.val = j.val; omega
  show rectify (combine (iblk3 V c 0 t) (iblk3 V c 1 t) (iblk3 V c 2 t) (Bv V c)) (ix2 p j)
    = rectify (combine (A V c) (H V c) (D V c) (Bv V c)) (((cfg3.win 4).blk t).view.emb (ix2 p j))
  rw [hemb]
  exact (rowsAt_rectify (rowsAt_combine (Bv V c) (rows_agg V c t) (rows_h V c t) (rows_d V c t))).apply p ⟨10000 * t.val + p.val, hr⟩ j rfl

/-- An index of the result array is in point `t`'s block iff each coordinate is in the block's range on its axis. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v59).slice (win3_4.rect t)).set ↔ _
  rw [View.set_slice_whole, Rect.mem_set_unit]
  exact Iff.rfl

/-- Every row of the result is in the block of the point numbered by its ten-thousands. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_4 _, ?_⟩
  rw [mem_blk]
  obtain ⟨-, -, -, -, -, -, -, -, e8, e9⟩ := idx_facts ⟨(i 0).val / 10000, by rw [hN]; omega⟩
  intro a
  match a with
  | ⟨0, _⟩ =>
    show win3_4.index _ (0 : Fin 2) * 10000 ≤ (i 0).val ∧ (i 0).val < win3_4.index _ (0 : Fin 2) * 10000 + 10000
    rw [e8]; show (i 0).val / 10000 * 10000 ≤ (i 0).val ∧ (i 0).val < (i 0).val / 10000 * 10000 + 10000; omega
  | ⟨1, _⟩ =>
    show win3_4.index _ (1 : Fin 2) * 64 ≤ (i 1).val ∧ (i 1).val < win3_4.index _ (1 : Fin 2) * 64 + 64
    rw [e9]; omega

/-- After the launch the result array is the combination of the four arrays the launch found. -/
theorem final (c : Dev nD) : (dat3 V c).arrAt 4 cfg3.N = rectify (combine (A V c) (H V c) (D V c) (Bv V c)) :=
  (dat3 V c).arrAt_eq_of_cover 4 (rectify (combine (A V c) (H V c) (D V c) (Bv V c))) (fun t _ => flushed_eq V c t) cover

end Cert.KernelIdeal.Region3

end
-- ==== Proof.Region4.lean ====
/-
  The third projection, block of rows by block of rows.

  Launch 4 computes `h = x · w` ten thousand rows at a time: grid point `t` reads rows 10000·t … 10000·t + 9999 of
  `x` and the whole of `w`, multiplies them on the matrix unit (its operands narrowed to the 16-bit format, which on
  the extended reals changes nothing, accumulating into zero) and writes the rows of the same numbers of the result.
  Row `r` of a product reads row `r` of the left factor only, so what point `t` writes is the block of rows of the
  whole product `x · w`; the ten blocks tile the result, so after the launch the result array is `x · w`.
-/
import proofs.«113482_j9122510536959_1_alg».proof.Proof.Gen.KernelIdeal.Frame
import proofs.«113482_j9122510536959_1_alg».proof.Proof.LibGcnDense

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProduct Cert.Bridge Cert.Gcn

-- the buffers as the launch finds them
variable (V : (c : Dev nD) → (b : Ref sig .tc) → Buf (Elt Ideal) ((c : Thread nD τ).loc b))

/-- The left factor, the right factor: the arrays of the launch's two input windows. -/
abbrev X (c : Dev nD) : (⟨2, ![100000, 64]⟩ : Shape).Idx → EReal := V c main_v59
abbrev Wt (c : Dev nD) : (⟨2, ![64, 32]⟩ : Shape).Idx → EReal := V c main_arg6

theorem hz : (![0, 0] : Fin 2 → Nat) = fun _ => 0 := funext fun a => by fin_cases a <;> rfl

/-- The printed index maps over the ten grid points: the row-blocked windows move with the point, the weight window
    stays at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the body leaves in the output block: the product of its two input blocks. -/
theorem out_eq (x0 : Vec Ideal S10000x64 .f32) (x1 : Vec Ideal S64x32 .f32) :
    out4_2 x0 x1 = prod (M := 10000) (K := 64) (N := 32) x0 x1 := by
  unfold out4_2
  rw [View.canon_unit_zero hz]
  simp only [View.ld_unit_zero (S := S10000x64) hz, View.ld_unit_zero (S := S64x32) hz]
  exact cast_narrowed_matmul_eq_prod (M := 10000) (K := 64) (N := 32) x0 x1 _ _

/-- The left window's block at point `t` holds rows 10000·t … of the left factor. -/
theorem rows_x (c : Dev nD) (t : Fin cfg4.N) :
    RowsAt (M := 10000) (R := 100000) (N := 64) (10000 * t.val) (iblk4 V c 0 t) (X V c) := by
  intro p r j e
  obtain ⟨e0, e1, -⟩ := idx_facts t
  show V c main_v59 (((cfg4.win 0).blk t).view.emb (ix2 p j)) = V c main_v59 (ix2 r j)
  refine congrArg (V c main_v59) (funext fun a => Fin.ext ?_)
  match a with
  | ⟨0, _⟩ => show win4_0.index t (0 : Fin 2) * 10000 + 1 * p.val = r.val; omega
  | ⟨1, _⟩ => show win4_0.index t (1 : Fin 2) * 64 + 1 * j.val = j.val; omega

/-- The weight window's block is the whole weight matrix, at every point. -/
theorem whole_w (c : Dev nD) (t : Fin cfg4.N) : (iblk4 V c 1 t : (⟨2, ![64, 32]⟩ : Shape).Idx → EReal) = Wt V c := by
  funext y
  obtain ⟨-, -, e2, e3, -⟩ := idx_facts t
  show V c main_arg6 (((cfg4.win 1).blk t).view.emb y) = V c main_arg6 y
  refine congrArg (V c main_arg6) (funext fun a => Fin.ext ?_)
  match a with
  | ⟨0, _⟩ => show win4_1.index t (0 : Fin 2) * 64 + 1 * (y 0).val = (y 0).val; omega
  | ⟨1, _⟩ => show win4_1.index t (1 : Fin 2) * 32 + 1 * (y 1).val = (y 1).val; omega

/-- What point `t` writes back is the block of rows 10000·t … of the whole product. -/
theorem flushed_eq (c : Dev nD) (t : Fin cfg4.N) :
    (dat4 V c).flushed 2 t = ((cfg4.win 2).blk t).view.read (Elt Ideal) (prod (X V c) (Wt V c)) := by
  show (cfg4.win 2).cut (grid4.coords t) ((dat4 V c).after 2 t) = _
  rw [after4_2, out_eq, whole_w]
  funext y
  obtain ⟨p, j, rfl⟩ : ∃ (p : Fin 10000) (j : Fin 32), y = ix2 p j := ⟨rowOf y, colOf y, eq_row_col y⟩
  obtain ⟨-, -, -, -, e4, e5⟩ := idx_facts t
  have ht : t.val < 10 := lt_of_lt_of_eq t.isLt (N_4 : cfg4.N = 10)
  have hr : 10000 * t.val + p.val < 100000 := by have := p.isLt; omega
  have hemb : ((cfg4.win 2).blk t).view.emb (ix2 p j) = ix2 (⟨10000 * t.val + p.val, hr⟩ : Fin 100000) j := by
    funext a
    refine Fin.ext ?_
    match a with
    | ⟨0, _⟩ => show win4_2.index t (0 : Fin 2) * 10000 + 1 * p.val = 10000 * t.val + p.val; omega
    | ⟨1, _⟩ => show win4_2.index t (1 : Fin 2) * 32 + 1 * j.val = j.val; omega
  show prod (iblk4 V c 0 t) (Wt V c) (ix2 p j) = prod (X V c) (Wt V c) (((cfg4.win 2).blk t).view.emb (ix2 p j))
  rw [hemb]
  exact ((rows_x V c t).prod (Wt V c)).apply p ⟨10000 * t.val + p.val, hr⟩ j rfl

/-- An index of the result array is in point `t`'s block iff each coordinate is in the block's range on its axis. -/
theorem mem_blk (t : Fin cfg4.N) (i : S100000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v60).slice (win4_2.rect t)).set ↔ _
  rw [View.set_slice_whole, Rect.mem_set_unit]
  exact Iff.rfl

/-- Every row of the result is in the block of the point numbered by its ten-thousands. -/
theorem cover (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 10 := N_4
  refine ⟨⟨(i 0).val / 10000, by rw [hN]; omega⟩, flush4_2 _, ?_⟩
  rw [mem_blk]
  obtain ⟨-, -, -, -, e4, e5⟩ := idx_facts ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 32 ≤ (i 1).val ∧ (i 1).val < win4_2.index _ (1 : Fin 2) * 32 + 32
    rw [e5]; omega

/-- After the launch the result array is the product of the two arrays the launch found. -/
theorem final (c : Dev nD) : (dat4 V c).arrAt 2 cfg4.N = prod (X V c) (Wt V c) :=
  (dat4 V c).arrAt_eq_of_cover 2 (prod (X V c) (Wt V c)) (fun t _ => flushed_eq V c t) cover

end Cert.KernelIdeal.Region4

end
-- ==== Proof.FoldC.lean ====
/-
  The idealized kernel's buffers, walked forward: the second layer's gathered sum and combination, the third projection.

  The same three steps as for the first layer, on the second projection and with the second bias and the third weight
  matrix. The edge weights and the self-loop column are the ones the first host stretch computed; the reference
  computes them again for each layer, from the edge list alone, and gets the same values.
-/
import proofs.«113482_j9122510536959_1_alg».proof.Proof.FoldB
import proofs.«113482_j9122510536959_1_alg».proof.Proof.Region3
import proofs.«113482_j9122510536959_1_alg».proof.Proof.Region4

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Cert.MatProduct Cert.Gcn

variable (m : (ℓ : Loc nD τ sig) → Buf (Elt Ideal) ℓ) (ρ : Dev nD → PrngReg) (c : Dev nD)

/-! ## After the third host stretch -/

/-- The second layer's gathered sum. -/
theorem W6_v57 : W6 m ρ c (Proc.devRef .tc main_v57) = Cert.ReferenceIdeal.Read.val_main_v77 (F := Ideal) (a0 m c) (a1 m c) (a2 m c) (a3 m c) (a4 m c) := by
  show StableHlo.after hostOps3 (W5 m ρ c) (Proc.devRef .tc main_v57) = _
  after_results_simp
  rw [W5_v44 m ρ c, W5_v1 m ρ c, W5_v27 m ρ c, W5_v3 m ρ c]
  all_goals rfl

/-- The second bias, regarded as a row. -/
theorem W6_v58 : W6 m ρ c (Proc.devRef .tc main_v58) = asRow (N := 64) (a5 m c) := by
  show StableHlo.after hostOps3 (W5 m ρ c) (Proc.devRef .tc main_v58) = _
  after_results_simp
  rw [W5_arg5 m ρ c]
  exact shapeCast_row (N := 64) (a5 m c) _

theorem W6_v44 : W6 m ρ c (Proc.devRef .tc main_v44) = Cert.ReferenceIdeal.Read.val_main_v49 (F := Ideal) (a0 m c) (a1 m c) (a2 m c) (a3 m c) (a4 m c) := by
  show StableHlo.after hostOps3 (W5 m ρ c) (Proc.devRef .tc main_v44) = _
  after_results_simp
  exact W5_v44 m ρ c

theorem W6_v12 : W6 m ρ c (Proc.devRef .tc main_v12) = asColumn (R := 100000) (Cert.ReferenceIdeal.Read.val_main_v40 (F := Ideal) (a1 m c)) := by
  show StableHlo.after hostOps3 (W5 m ρ c) (Proc.devRef .tc main_v12) = _
  after_results_simp
  exact W5_v12 m ρ c

theorem W6_v1 : W6 m ρ c (Proc.devRef .tc main_v1) = Cert.ReferenceIdeal.Read.val_main_v1 (F := Ideal) (a1 m c) := by
  show StableHlo.after hostOps3 (W5 m ρ c) (Proc.devRef .tc main_v1) = _
  after_results_simp
  exact W5_v1 m ρ c

theorem W6_v3 : W6 m ρ c (Proc.devRef .tc main_v3) = Cert.ReferenceIdeal.Read.val_main_v3 (F := Ideal) (a1 m c) := by
  show StableHlo.after hostOps3 (W5 m ρ c) (Proc.devRef .tc main_v3) = _
  after_results_simp
  exact W5_v3 m ρ c

theorem W6_v27 : W6 m ρ c (Proc.devRef .tc main_v27) = Cert.ReferenceIdeal.Read.val_main_v26 (F := Ideal) (a1 m c) := by
  show StableHlo.after hostOps3 (W5 m ρ c) (Proc.devRef .tc main_v27) = _
  after_results_simp
  exact W5_v27 m ρ c

theorem W6_arg6 : W6 m ρ c (Proc.devRef .tc main_arg6) = a6 m c := by
  show StableHlo.after hostOps3 (W5 m ρ c) (Proc.devRef .tc main_arg6) = _
  after_results_simp
  exact W5_arg6 m ρ c

theorem W6_arg7 : W6 m ρ c (Proc.devRef .tc main_arg7) = a7 m c := by
  show StableHlo.after hostOps3 (W5 m ρ c) (Proc.devRef .tc main_arg7) = _
  after_results_simp
  exact W5_arg7 m ρ c

/-! ## After the second combination -/

/-- The launch leaves the reference's second-layer output. -/
theorem W7_v59 : W7 m ρ c (Proc.devRef .tc main_v59) = Cert.ReferenceIdeal.Read.val_main_v86 (F := Ideal) (a0 m c) (a1 m c) (a2 m c) (a3 m c) (a4 m c) (a5 m c) := by
  rw [Cert.ReferenceIdeal.Layers.comb2]
  refine (W7_arr m ρ c 4).trans ((Region3.final (V6 m ρ) c).trans ?_)
  show rectify (combine (R := 100000) (N := 64) (W6 m ρ c (Proc.devRef .tc main_v57)) (W6 m ρ c (Proc.devRef .tc main_v44)) (W6 m ρ c (Proc.devRef .tc main_v12)) (W6 m ρ c (Proc.devRef .tc main_v58))) = _
  rw [W6_v57 m ρ c, W6_v44 m ρ c, W6_v12 m ρ c, W6_v58 m ρ c]
  all_goals rfl

theorem W7_v1 : W7 m ρ c (Proc.devRef .tc main_v1) = Cert.ReferenceIdeal.Read.val_main_v1 (F := Ideal) (a1 m c) :=
  (W7_of_ne m ρ c main_v1 (by decide)).trans (W6_v1 m ρ c)

theorem W7_v3 : W7 m ρ c (Proc.devRef .tc main_v3) = Cert.ReferenceIdeal.Read.val_main_v3 (F := Ideal) (a1 m c) :=
  (W7_of_ne m ρ c main_v3 (by decide)).trans (W6_v3 m ρ c)

theorem W7_v27 : W7 m ρ c (Proc.devRef .tc main_v27) = Cert.ReferenceIdeal.Read.val_main_v26 (F := Ideal) (a1 m c) :=
  (W7_of_ne m ρ c main_v27 (by decide)).trans (W6_v27 m ρ c)

theorem W7_arg6 : W7 m ρ c (Proc.devRef .tc main_arg6) = a6 m c :=
  (W7_of_ne m ρ c main_arg6 (by decide)).trans (W6_arg6 m ρ c)

theorem W7_arg7 : W7 m ρ c (Proc.devRef .tc main_arg7) = a7 m c :=
  (W7_of_ne m ρ c main_arg7 (by decide)).trans (W6_arg7 m ρ c)

/-- The self-loop column is an input of the launch: it is left as found. -/
theorem W7_v12 : W7 m ρ c (Proc.devRef .tc main_v12) = asColumn (R := 100000) (Cert.ReferenceIdeal.Read.val_main_v40 (F := Ideal) (a1 m c)) :=
  ((W7_arr m ρ c 2).trans (((dat3 (V6 m ρ) c).arrAt_in 2 rfl _).trans (A_eq3 (V6 m ρ) c 2))).trans (W6_v12 m ρ c)

/-! ## After the third projection -/

/-- The launch leaves the reference's third projection, thirty-two features wide. -/
theorem W8_v60 : W8 m ρ c (Proc.devRef .tc main_v60) = Cert.ReferenceIdeal.Read.val_main_v87 (F := Ideal) (a0 m c) (a1 m c) (a2 m c) (a3 m c) (a4 m c) (a5 m c) (a6 m c) := by
  rw [Cert.ReferenceIdeal.Layers.proj3]
  refine (W8_arr m ρ c 2).trans ((Region4.final (V7 m ρ) c).trans ?_)
  exact congrArg₂ (prod (M := 100000) (K := 64) (N := 32)) (W7_v59 m ρ c) (W7_arg6 m ρ c)

theorem W8_v1 : W8 m ρ c (Proc.devRef .tc main_v1) = Cert.ReferenceIdeal.Read.val_main_v1 (F := Ideal) (a1 m c) :=
  (W8_of_ne m ρ c main_v1 (by decide)).trans (W7_v1 m ρ c)

theorem W8_v3 : W8 m ρ c (Proc.devRef .tc main_v3) = Cert.ReferenceIdeal.Read.val_main_v3 (F := Ideal) (a1 m c) :=
  (W8_of_ne m ρ c main_v3 (by decide)).trans (W7_v3 m ρ c)

theorem W8_v27 : W8 m ρ c (Proc.devRef .tc main_v27) = Cert.ReferenceIdeal.Read.val_main_v26 (F := Ideal) (a1 m c) :=
  (W8_of_ne m ρ c main_v27 (by decide)).trans (W7_v27 m ρ c)

theorem W8_v12 : W8 m ρ c (Proc.devRef .tc main_v12) = asColumn (R := 100000) (Cert.ReferenceIdeal.Read.val_main_v40 (F := Ideal) (a1 m c)) :=
  (W8_of_ne m ρ c main_v12 (by decide)).trans (W7_v12 m ρ c)

theorem W8_arg7 : W8 m ρ c (Proc.devRef .tc main_arg7) = a7 m c :=
  (W8_of_ne m ρ c main_arg7 (by decide)).trans (W7_arg7 m ρ c)

end Cert.KernelIdeal.Stages

end
-- ==== Proof.Region5.lean ====
/-
  The third layer's combination, block of rows by block of rows.

  Launch 5 computes, ten thousand rows at a time, `(agg + d · h) + b`: grid point `t` reads rows
  10000·t … 10000·t + 9999 of the gathered sum `agg`, of the projection `h` and of the self-loop column `d`, and the
  whole bias row `b`; it spreads the column along the features and the row down the nodes and writes the rows of the
  same numbers of the result. Entry `(r, j)` of the combination reads row `r` of `agg`, `h` and `d` only, so what
  point `t` writes is the block of rows of the combination of the whole arrays; the ten blocks tile the result.
-/
import proofs.«113482_j9122510536959_1_alg».proof.Proof.Gen.KernelIdeal.Frame
import proofs.«113482_j9122510536959_1_alg».proof.Proof.LibGcnDense

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatProduct Cert.Bridge Cert.Gcn

-- the buffers as the launch finds them
variable (V : (c : Dev nD) → (b : Ref sig .tc) → Buf (Elt Ideal) ((c : Thread nD τ).loc b))

/-- The gathered sum, the projection, the self-loop column, the bias row: the arrays of the four input windows. -/
abbrev A (c : Dev nD) : (⟨2, ![100000, 32]⟩ : Shape).Idx → EReal := V c main_v73
abbrev H (c : Dev nD) : (⟨2, ![100000, 32]⟩ : Shape).Idx → EReal := V c main_v60
abbrev D (c : Dev nD) : (⟨2, ![100000, 1]⟩ : Shape).Idx → EReal := V c main_v12
abbrev Bv (c : Dev nD) : (⟨2, ![1, 32]⟩ : Shape).Idx → EReal := V c main_v74

theorem hz : (![0, 0] : Fin 2 → Nat) = fun _ => 0 := funext fun a => by fin_cases a <;> rfl

/-- The printed index maps over the ten grid points: the row-blocked windows move with the point, the bias window
    stays at the origin. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What the body leaves in the output block: the combination of its four input blocks. -/
theorem out_eq (x0 x1 : Vec Ideal S10000x32 .f32) (x2 : Vec Ideal S10000x1 .f32) (x3 : Vec Ideal S1x32 .f32) :
    out5_4 x0 x1 x2 x3 = combine (R := 10000) (N := 32) x0 x1 x2 x3 := by
  unfold out5_4
  rw [View.canon_unit_zero hz]
  simp only [View.ld_unit_zero (S := S10000x32) hz, View.ld_unit_zero (S := S10000x1) hz, View.ld_unit_zero (S := S1x32) hz]
  exact combineBody_eq (M := 10000) (N := 32) x0 x1 x2 x3 _ _ _ _ _

/-- A row-blocked window's block at point `t` holds rows 10000·t … of its array. -/
theorem rows_agg (c : Dev nD) (t : Fin cfg5.N) :
    RowsAt (M := 10000) (R := 100000) (N := 32) (10000 * t.val) (iblk5 V c 0 t) (A V c) := by
  intro p r j e
  obtain ⟨e0, e1, -⟩ := idx_facts t
  show V c main_v73 (((cfg5.win 0).blk t).view.emb (ix2 p j)) = V c main_v73 (ix2 r j)
  refine congrArg (V c main_v73) (funext fun a => Fin.ext ?_)
  match a with
  | ⟨0, _⟩ => show win5_0.index t (0 : Fin 2) * 10000 + 1 * p.val = r.val; omega
  | ⟨1, _⟩ => show win5_0.index t (1 : Fin 2) * 32 + 1 * j.val = j.val; omega

theorem rows_h (c : Dev nD) (t : Fin cfg5.N) :
    RowsAt (M := 10000) (R := 100000) (N := 32) (10000 * t.val) (iblk5 V c 1 t) (H V c) := by
  intro p r j e
  obtain ⟨-, -, e2, e3, -⟩ := idx_facts t
  show V c main_v60 (((cfg5.win 1).blk t).view.emb (ix2 p j)) = V c main_v60 (ix2 r j)
  refine congrArg (V c main_v60) (funext fun a => Fin.ext ?_)
  match a with
  | ⟨0, _⟩ => show win5_1.index t (0 : Fin 2) * 10000 + 1 * p.val = r.val; omega
  | ⟨1, _⟩ => show win5_1.index t (1 : Fin 2) * 32 + 1 * j.val = j.val; omega

theorem rows_d (c : Dev nD) (t : Fin cfg5.N) :
    RowsAt (M := 10000) (R := 100000) (N := 1) (10000 * t.val) (iblk5 V c 2 t) (D V c) := by
  intro p r j e
  obtain ⟨-, -, -, -, e4, e5, -⟩ := idx_facts t
  show V c main_v12 (((cfg5.win 2).blk t).view.emb (ix2 p j)) = V c main_v12 (ix2 r j)
  refine congrArg (V c main_v12) (funext fun a => Fin.ext ?_)
  match a with
  | ⟨0, _⟩ => show win5_2.index t (0 : Fin 2) * 10000 + 1 * p.val = r.val; omega
  | ⟨1, _⟩ => show win5_2.index t (1 : Fin 2) * 1 + 1 * j.val = j.val; omega

/-- The bias window's block is the whole bias row, at every point. -/
theorem whole_b (c : Dev nD) (t : Fin cfg5.N) : (iblk5 V c 3 t : (⟨2, ![1, 32]⟩ : Shape).Idx → EReal) = Bv V c := by
  funext y
  obtain ⟨-, -, -, -, -, -, e6, e7, -⟩ := idx_facts t
  show V c main_v74 (((cfg5.win 3).blk t).view.emb y) = V c main_v74 y
  refine congrArg (V c main_v74) (funext fun a => Fin.ext ?_)
  match a with
  | ⟨0, _⟩ => show win5_3.index t (0 : Fin 2) * 1 + 1 * (y 0).val = (y 0).val; omega
  | ⟨1, _⟩ => show win5_3.index t (1 : Fin 2) * 32 + 1 * (y 1).val = (y 1).val; omega

/-- What point `t` writes back is the block of rows 10000·t … of the combination of the whole arrays. -/
theorem flushed_eq (c : Dev nD) (t : Fin cfg5.N) :
    (dat5 V c).flushed 4 t = ((cfg5.win 4).blk t).view.read (Elt Ideal) (combine (A V c) (H V c) (D V c) (Bv V c)) := by
  show (cfg5.win 4).cut (grid5.coords t) ((dat5 V c).after 4 t) = _
  rw [after5_4, out_eq, whole_b]
  funext y
  obtain ⟨p, j, rfl⟩ : ∃ (p : Fin 10000) (j : Fin 32), y = ix2 p j := ⟨rowOf y, colOf y, eq_row_col y⟩
  obtain ⟨-, -, -, -, -, -, -, -, e8, e9⟩ := idx_facts t
  have ht : t.val < 10 := lt_of_lt_of_eq t.isLt (N_5 : cfg5.N = 10)
  have hr : 10000 * t.val + p.val < 100000 := by have := p.isLt; omega
  have hemb : ((cfg5.win 4).blk t).view.emb (ix2 p j) = ix2 (⟨10000 * t.val + p.val, hr⟩ : Fin 100000) j := by
    funext a
    refine Fin.ext ?_
    match a with
    | ⟨0, _⟩ => show win5_4.index t (0 : Fin 2) * 10000 + 1 * p.val = 10000 * t.val + p.val; omega
    | ⟨1, _⟩ => show win5_4.index t (1 : Fin 2) * 32 + 1 * j.val = j.val; omega
  show combine (iblk5 V c 0 t) (iblk5 V c 1 t) (iblk5 V c 2 t) (Bv V c) (ix2 p j)
    = combine (A V c) (H V c) (D V c) (Bv V c) (((cfg5.win 4).blk t).view.emb (ix2 p j))
  rw [hemb]
  exact (rowsAt_combine (Bv V c) (rows_agg V c t) (rows_h V c t) (rows_d V c t)).apply p ⟨10000 * t.val + p.val, hr⟩ j rfl

/-- An index of the result array is in point `t`'s block iff each coordinate is in the block's range on its axis. -/
theorem mem_blk (t : Fin cfg5.N) (i : S100000x32.Idx) :
    i ∈ ((cfg5.win 4).blk t).view.set ↔ ∀ a : Fin 2, win5_4.index t a * S10000x32.size a ≤ (i a).val ∧ (i a).val < win5_4.index t a * S10000x32.size a + S10000x32.size a := by
  show i ∈ ((View.whole main_v75).slice (win5_4.rect t)).set ↔ _
  rw [View.set_slice_whole, Rect.mem_set_unit]
  exact Iff.rfl

/-- Every row of the result is in the block of the point numbered by its ten-thousands. -/
theorem cover (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 10 := N_5
  refine ⟨⟨(i 0).val / 10000, by rw [hN]; omega⟩, flush5_4 _, ?_⟩
  rw [mem_blk]
  obtain ⟨-, -, -, -, -, -, -, -, e8, e9⟩ := idx_facts ⟨(i 0).val / 10000, by rw [hN]; omega⟩
  intro a
  match a with
  | ⟨0, _⟩ =>
    show win5_4.index _ (0 : Fin 2) * 10000 ≤ (i 0).val ∧ (i 0).val < win5_4.index _ (0 : Fin 2) * 10000 + 10000
    rw [e8]; show (i 0).val / 10000 * 10000 ≤ (i 0).val ∧ (i 0).val < (i 0).val / 10000 * 10000 + 10000; omega
  | ⟨1, _⟩ =>
    show win5_4.index _ (1 : Fin 2) * 32 ≤ (i 1).val ∧ (i 1).val < win5_4.index _ (1 : Fin 2) * 32 + 32
    rw [e9]; omega

/-- After the launch the result array is the combination of the four arrays the launch found. -/
theorem final (c : Dev nD) : (dat5 V c).arrAt 4 cfg5.N = combine (A V c) (H V c) (D V c) (Bv V c) :=
  (dat5 V c).arrAt_eq_of_cover 4 (combine (A V c) (H V c) (D V c) (Bv V c)) (fun t _ => flushed_eq V c t) cover

end Cert.KernelIdeal.Region5

end
-- ==== Proof.FoldD.lean ====
/-
  The idealized kernel's buffers, walked forward: the third layer's gathered sum and combination — the result.

  The last host stretch gathers and sums the third projection along the edges and regards the third bias as a row; the
  last launch leaves their combination with the projection and the self-loop column, with no maximum taken. That is
  the reference's result, as a function of the arguments as launched.
-/
import proofs.«113482_j9122510536959_1_alg».proof.Proof.FoldC
import proofs.«113482_j9122510536959_1_alg».proof.Proof.Region5

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Cert.MatProduct Cert.Gcn

variable (m : (ℓ : Loc nD τ sig) → Buf (Elt Ideal) ℓ) (ρ : Dev nD → PrngReg) (c : Dev nD)

/-! ## After the fourth host stretch -/

/-- The third layer's gathered sum. -/
theorem W9_v73 : W9 m ρ c (Proc.devRef .tc main_v73) = Cert.ReferenceIdeal.Read.val_main_v115 (F := Ideal) (a0 m c) (a1 m c) (a2 m c) (a3 m c) (a4 m c) (a5 m c) (a6 m c) := by
  show StableHlo.after hostOps5 (W8 m ρ c) (Proc.devRef .tc main_v73) = _
  after_results_simp
  rw [W8_v60 m ρ c, W8_v1 m ρ c, W8_v27 m ρ c, W8_v3 m ρ c]
  all_goals rfl

/-- The third bias, regarded as a row. -/
theorem W9_v74 : W9 m ρ c (Proc.devRef .tc main_v74) = asRow (N := 32) (a7 m c) := by
  show StableHlo.after hostOps5 (W8 m ρ c) (Proc.devRef .tc main_v74) = _
  after_results_simp
  rw [W8_arg7 m ρ c]
  exact shapeCast_row (N := 32) (a7 m c) _

theorem W9_v60 : W9 m ρ c (Proc.devRef .tc main_v60) = Cert.ReferenceIdeal.Read.val_main_v87 (F := Ideal) (a0 m c) (a1 m c) (a2 m c) (a3 m c) (a4 m c) (a5 m c) (a6 m c) := by
  show StableHlo.after hostOps5 (W8 m ρ c) (Proc.devRef .tc main_v60) = _
  after_results_simp
  exact W8_v60 m ρ c

theorem W9_v12 : W9 m ρ c (Proc.devRef .tc main_v12) = asColumn (R := 100000) (Cert.ReferenceIdeal.Read.val_main_v40 (F := Ideal) (a1 m c)) := by
  show StableHlo.after hostOps5 (W8 m ρ c) (Proc.devRef .tc main_v12) = _
  after_results_simp
  exact W8_v12 m ρ c

/-! ## After the last combination -/

/-- The result buffer at the end of the fold is the reference's result term of the arguments. -/
theorem W10_v75 : W10 m ρ c (Proc.devRef .tc main_v75) = Cert.ReferenceIdeal.Read.val_main_v123 (F := Ideal) (a0 m c) (a1 m c) (a2 m c) (a3 m c) (a4 m c) (a5 m c) (a6 m c) (a7 m c) := by
  rw [Cert.ReferenceIdeal.Layers.comb3]
  refine (W10_arr m ρ c 4).trans ((Region5.final (V9 m ρ) c).trans ?_)
  show combine (R := 100000) (N := 32) (W9 m ρ c (Proc.devRef .tc main_v73)) (W9 m ρ c (Proc.devRef .tc main_v60)) (W9 m ρ c (Proc.devRef .tc main_v12)) (W9 m ρ c (Proc.devRef .tc main_v74)) = _
  rw [W9_v73 m ρ c, W9_v60 m ρ c, W9_v12 m ρ c, W9_v74 m ρ c]
  all_goals rfl

end Cert.KernelIdeal.Stages

end
-- ==== Proof.lean ====
/-
  The five claims of the certificate.

  The kernel computes three graph-convolution layers. The irregular part of a layer — gathering projected rows along the
  edges and summing them into their destination nodes — it leaves to the same host operations the reference uses; the two
  dense parts it does itself, ten thousand rows of the node axis at a time: the projection `h = x · w`, on the matrix
  unit with operands narrowed to the 16-bit format, and the combination `(agg + d · h) + b` with, for the first two
  layers, the maximum with zero. The reference does the dense parts on whole arrays, writes the product in the
  combination as `h · d`, and builds the spread self-loop weights and bias by broadcasts instead of reshapes.

  On the extended reals a change of format is the identity and a contraction is an exact sum, so each projection, block by
  block, is the whole product (row `r` of a product reads row `r` of the left factor only); each combination, block by
  block, is the combination of the whole arrays (entry `(r, j)` reads row `r` only); and `d · h = h · d`. The buffers of
  the kernel's run are a fold through its host stretches and launches, and walked forward each buffer holds the value
  the reference computes for the same quantity, up to the result. No finiteness of the inputs is used: commuting a
  product is valid at the infinities too.

  The frames of the two kernel programs are the generated ones; the reference's frame is its generated run with the
  result dropped; the idealization rewrote no operation, so there is nothing to preserve.
-/
import proofs.«113482_j9122510536959_1_alg».proof.Defs
import proofs.«113482_j9122510536959_1_alg».proof.Proof.Gen.Kernel
import proofs.«113482_j9122510536959_1_alg».proof.Proof.Gen.Kernel.Skeleton
import proofs.«113482_j9122510536959_1_alg».proof.Proof.Gen.Kernel.Launch
import proofs.«113482_j9122510536959_1_alg».proof.Proof.Gen.Kernel.Points
import proofs.«113482_j9122510536959_1_alg».proof.Proof.Gen.Kernel.Frame
import proofs.«113482_j9122510536959_1_alg».proof.Proof.Gen.KernelIdeal
import proofs.«113482_j9122510536959_1_alg».proof.Proof.Gen.KernelIdeal.Skeleton
import proofs.«113482_j9122510536959_1_alg».proof.Proof.Gen.KernelIdeal.Launch
import proofs.«113482_j9122510536959_1_alg».proof.Proof.Gen.KernelIdeal.Points
import proofs.«113482_j9122510536959_1_alg».proof.Proof.Gen.KernelIdeal.Frame
import proofs.«113482_j9122510536959_1_alg».proof.Proof.Gen.ReferenceIdeal
import proofs.«113482_j9122510536959_1_alg».proof.Proof.Gen.Pre_finite_inputs
import proofs.«113482_j9122510536959_1_alg».proof.Proof.Gen.ReferenceIdeal.Run
import proofs.«113482_j9122510536959_1_alg».proof.Proof.Gen.ReferenceIdeal.Read
import proofs.«113482_j9122510536959_1_alg».proof.Proof.KernelRun
import proofs.«113482_j9122510536959_1_alg».proof.Proof.FoldD
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- So does the idealized reference: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments the two idealized programs end with one result: the kernel's fold ends at
    the reference's result term of the arguments, and the reference's run ends at that term of its own, equal, arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v123 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)), ?_, ?_⟩
  · refine (θ_run Cert.KernelIdeal.defs _ _).mono (fun r h c => ⟨(h c).1.trans ?_, (h c).2⟩)
      (Cert.KernelIdeal.Fold.run_result (F := Ideal) m ρ)
    show _ = Cert.ReferenceIdeal.Read.val_main_v123 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.KernelIdeal.Stages.W10_v75 m ρ c
  · exact (θ_run Cert.ReferenceIdeal.defs _ _).mono
      (fun r h c => ⟨(h c).1.trans (Cert.ReferenceIdeal.Read.val_main_v123_eq (F := Ideal) m' c), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
